-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S10000x64 : Shape := ⟨2, ![10000, 64]⟩
abbrev S1x64 : Shape := ⟨2, ![1, 64]⟩
abbrev S400x10000 : Shape := ⟨2, ![400, 10000]⟩
abbrev S400x64 : Shape := ⟨2, ![400, 64]⟩
abbrev S400x128 : Shape := ⟨2, ![400, 128]⟩
abbrev S400 : Shape := ⟨1, ![400]⟩
abbrev S400x1 : Shape := ⟨2, ![400, 1]⟩

abbrev nBuf : Space → Nat
  | .hbm => 10
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S10000x64, .f32⟩
  | .hbm, ⟨8, _⟩ => ⟨S1x64, .f32⟩
  | .hbm, ⟨9, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S128x64, .f32⟩
  | .local _ .vmem, ⟨4, _⟩ => ⟨S400x10000, .f32⟩
  | .local _ .vmem, ⟨5, _⟩ => ⟨S400x10000, .f32⟩
  | .local _ .vmem, ⟨6, _⟩ => ⟨S400x64, .f32⟩
  | .local _ .vmem, ⟨7, _⟩ => ⟨S400x64, .f32⟩
  | .local _ .vmem, ⟨8, _⟩ => ⟨S10000x128, .f32⟩
  | .local _ .vmem, ⟨9, _⟩ => ⟨S10000x64, .f32⟩
  | .local _ .vmem, ⟨10, _⟩ => ⟨S1x64, .f32⟩
  | .local _ .vmem, ⟨11, _⟩ => ⟨S400x10000, .f32⟩
  | .local _ .vmem, ⟨12, _⟩ => ⟨S400x10000, .f32⟩
  | .local _ .vmem, ⟨13, _⟩ => ⟨S400x64, .f32⟩
  | .local _ .vmem, ⟨14, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  inb_S400x64_S400x64_0_0 : ∀ a, (![0, 0] : Fin 2 → Nat) a + S400x64.size a ≤ S400x64.size a
  h_S400x64 : 0 < S400x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .f32 = 32 ∨ (Rect.block (s := S10000x10000) S400x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x64.size a ≤ S10000x64.size a
  hwx0_5 : ∀ i : grid0.Coords, EltTy.bits .f32 = 32 ∨ (Rect.block (s := S10000x64) S400x64.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S10000x64.size a
  hwx1_0 : ∀ i : grid1.Coords, EltTy.bits .f32 = 32 ∨ (Rect.block (s := S10000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x10000.size a ≤ S10000x10000.size a
  hwx1_2 : ∀ i : grid1.Coords, EltTy.bits .f32 = 32 ∨ (Rect.block (s := S10000x10000) S400x10000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x64.size a ≤ S10000x64.size a
  hwx1_3 : ∀ i : grid1.Coords, EltTy.bits .f32 = 32 ∨ (Rect.block (s := S10000x64) S400x64.size (cc1_transform_3 i) (hinb1_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S400x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S400x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v1) S10000x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S400x10000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S400x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x64, .f32⟩
  | .hbm, ⟨33, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.K0.lean ====
/-
  The first pass (hidden layer and its product with the second weights) as a pipeline region, at the buffer contents
  `V` the region is entered with. Its grid has 25 points; point `t` sees the whole feature matrix (window 0), the first
  weights (window 1), the first bias as a row (window 2), the second weights (window 3) and rows 400·t … 400·t+399 of
  the adjacency (window 4), and writes those rows of the product (window 5). A scratch buffer is carried between the
  points: the first point stores x·W1 into it and every point reads it. So the region's invariant says, after the
  first point, WHAT the scratch holds — x·W1 of the blocks the first point saw — and every point's output is stated
  over that one value.
-/
import proofs.«147694_g50946902065446_cont_8to1_c_980_2_alg».proof.Proof.Gen.Kernel.Launch
import proofs.«147694_g50946902065446_cont_8to1_c_980_2_alg».proof.Proof.Gen.Kernel.Skeleton
import proofs.«147694_g50946902065446_cont_8to1_c_980_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the part of its array, as the region finds it, that the point sees. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem found0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem found0_4 {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: each a whole buffer -/

abbrev q0_x : Rect S10000x128 := Rect.unit (s := S10000x128) ![0, 0] S10000x128.size inb_S10000x128_S10000x128_0_0
abbrev q0_w1 : Rect S128x128 := Rect.unit (s := S128x128) ![0, 0] S128x128.size inb_S128x128_S128x128_0_0
abbrev q0_b : Rect S1x128 := Rect.unit (s := S1x128) ![0, 0] S1x128.size inb_S1x128_S1x128_0_0
abbrev q0_w2 : Rect S128x64 := Rect.unit (s := S128x64) ![0, 0] S128x64.size inb_S128x64_S128x64_0_0
abbrev q0_a : Rect S400x10000 := Rect.unit (s := S400x10000) ![0, 0] S400x10000.size inb_S400x10000_S400x10000_0_0
abbrev q0_o : Rect S400x64 := Rect.unit (s := S400x64) ![0, 0] S400x64.size inb_S400x64_S400x64_0_0

/-- What the first point's store leaves in the scratch: x·W1 of the loaded feature and weight blocks. -/
def scr0 (x : Vec F S10000x128 .f32) (w1 : Vec F S128x128 .f32) : Vec F S10000x128 .f32 :=
  View.canon [⟨q0_x, k0_pay1 (View.ld x q0_x) (View.ld w1 q0_w1)⟩]

/-- What a point leaves in the output's staging buffer when the scratch reads `s`: its one store, of the stripe
    computed from the adjacency block, the scratch, the bias row and the second weights. -/
def out0 (s : Vec F S10000x128 .f32) (b : Vec F S1x128 .f32) (w2 : Vec F S128x64 .f32) (a : Vec F S400x10000 .f32) : Vec F S400x64 .f32 :=
  View.canon [⟨q0_o, k0_pay2 (View.ld a q0_a) (View.ld s q0_x) (View.ld b q0_b) (View.ld w2 q0_w2)⟩]

theorem covers0_o (p0 : Vec F S400x64 .f32) (y : S400x64.Idx) :
    ∃ pc ∈ ([⟨q0_o, p0⟩] : List (View.Piece (Elt F) S400x64 .f32)), y ∈ pc.1.set :=
  View.cover_of_tiled [⟨q0_o, p0⟩] S400x64.size (by rfl) y
theorem covers0_s (p0 : Vec F S10000x128 .f32) (y : S10000x128.Idx) :
    ∃ pc ∈ ([⟨q0_x, p0⟩] : List (View.Piece (Elt F) S10000x128 .f32)), y ∈ pc.1.set :=
  View.cover_of_tiled [⟨q0_x, p0⟩] S10000x128.size (by rfl) y

/-! ## The branch on the grid coordinate -/

/-- The body's condition "this is the first point", from the grid coordinate. -/
abbrev first0 (i : grid0.Coords) : Prop :=
  (Scalar.cmpi .ne (Scalar.extui (Scalar.cmpi .eq (BitVec.ofNat 32 (i 0).val) 0#32)) 0#32) = 1#1
/-- It holds at point 0 and nowhere else — decided over the 25 points. -/
theorem first0_iff : ∀ t : Fin cfg0.N, first0 (grid0.coords t) ↔ t.val = 0 :=
  (by decide +kernel : ∀ t : Fin grid0.N, first0 (grid0.coords t) ↔ t.val = 0)

/-! ## The body's triples, one per way the branch goes -/

set_option maxHeartbeats 2000000 in
/-- At the first point: on whole memrefs, the inputs' at their read contents, the output's and the scratch at
    anything, the body stores x·W1 into the scratch, reads it back and stores the stripe; it ends with the inputs' as
    they were, the scratch at `scr0` and the output's at `out0` of that. -/
theorem tripleFirst (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x64 .f32) (harg4 : arg4.IsWhole)
    (arg5 : Memref sig .tc .vmem S400x10000 .f32) (harg5 : arg5.IsWhole) (arg6 : Memref sig .tc .vmem S400x64 .f32) (harg6 : arg6.IsWhole)
    (arg7 : Memref sig .tc .vmem S10000x128 .f32) (harg7 : arg7.IsWhole) (hc : first0 i)
    (x : Vec F S10000x128 .f32) (w1 : Vec F S128x128 .f32) (b : Vec F S1x128 .f32) (w2 : Vec F S128x64 .f32) (a : Vec F S400x10000 .f32)
    (K : PUnit → sProp 𝕄) :
    iprop(owns (c : Thread nD τ) arg1 fullShare x ∗ owns (c : Thread nD τ) arg2 fullShare w1 ∗ owns (c : Thread nD τ) arg3 fullShare b
        ∗ owns (c : Thread nD τ) arg4 fullShare w2 ∗ owns (c : Thread nD τ) arg5 fullShare a
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare w1 ∗ owns (c : Thread nD τ) arg3 fullShare b
        ∗ owns (c : Thread nD τ) arg4 fullShare w2 ∗ owns (c : Thread nD τ) arg5 fullShare a
            ∗ owns (c : Thread nD τ) arg6 fullShare (out0 (scr0 x w1) b w2 a) ∗ owns (c : Thread nD τ) arg7 fullShare (scr0 x w1)) -∗ K ⟨⟩))
      ⊢ wp frame (wpE (defs₀ (F := F)) Variants.none c none) E (cc0__layer1_kernel i arg1 harg1 arg2 harg2 arg3 harg3 arg4 harg4 arg5 harg5 arg6 harg6 arg7 harg7) K := by
  simp only [cc0__layer1_kernel_eq_skeleton]; unfold cc0__layer1_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    unfold out0 scr0
    rw [View.readCov_eq_canon_ld _ _ _ (covers0_s _)]
    exact View.read_writes_eq_canon _ _ _ (covers0_o _)
  iexists _; isplitr
  swap; · iexact H7
  ipureintro
  sl_unfold_run_names
  exact View.read_writes_eq_canon _ _ _ (covers0_s _)

set_option maxHeartbeats 2000000 in
/-- At a later point: the scratch is handed over reading `s`; the branch is skipped, the body reads the scratch and
    stores the stripe; it ends with the inputs' and the scratch as they were and the output's at `out0 s`. -/
theorem tripleLater (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x64 .f32) (harg4 : arg4.IsWhole)
    (arg5 : Memref sig .tc .vmem S400x10000 .f32) (harg5 : arg5.IsWhole) (arg6 : Memref sig .tc .vmem S400x64 .f32) (harg6 : arg6.IsWhole)
    (arg7 : Memref sig .tc .vmem S10000x128 .f32) (harg7 : arg7.IsWhole) (hc : ¬first0 i)
    (x : Vec F S10000x128 .f32) (w1 : Vec F S128x128 .f32) (b : Vec F S1x128 .f32) (w2 : Vec F S128x64 .f32) (a : Vec F S400x10000 .f32)
    (s : Vec F S10000x128 .f32) (K : PUnit → sProp 𝕄) :
    iprop(owns (c : Thread nD τ) arg1 fullShare x ∗ owns (c : Thread nD τ) arg2 fullShare w1 ∗ owns (c : Thread nD τ) arg3 fullShare b
        ∗ owns (c : Thread nD τ) arg4 fullShare w2 ∗ owns (c : Thread nD τ) arg5 fullShare a
        ∗ (∃ d, owns (c : Thread nD τ) arg6 fullShare d) ∗ owns (c : Thread nD τ) arg7 fullShare s
        ∗ (iprop(owns (c : Thread nD τ) arg1 fullShare x ∗ owns (c : Thread nD τ) arg2 fullShare w1 ∗ owns (c : Thread nD τ) arg3 fullShare b
        ∗ owns (c : Thread nD τ) arg4 fullShare w2 ∗ owns (c : Thread nD τ) arg5 fullShare a
            ∗ owns (c : Thread nD τ) arg6 fullShare (out0 s b w2 a) ∗ owns (c : Thread nD τ) arg7 fullShare s) -∗ K ⟨⟩))
      ⊢ wp frame (wpE (defs₀ (F := F)) Variants.none c none) E (cc0__layer1_kernel i arg1 harg1 arg2 harg2 arg3 harg3 arg4 harg4 arg5 harg5 arg6 harg6 arg7 harg7) K := by
  simp only [cc0__layer1_kernel_eq_skeleton]; unfold cc0__layer1_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1; subst hf2; subst hf3; subst hf4; subst hf5; subst hf7
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers0_o _)
  iexists f7; isplitr; · ipureintro; rfl
  iexact H7

/-! ## The region's invariant: the scratch across the points -/

/-- The scratch operand: a whole scoped buffer of the kernel's own, passed beside the windows. -/
abbrev scM : Memref sig .tc .vmem S10000x128 .f32 := Memref.whole cc0_scratch0

/-- The grid's first point. -/
abbrev t0 : Fin cfg0.N := ⟨0, by decide⟩

/-- What the scratch holds after the first point: x·W1 of the blocks that point saw. -/
def scrAt (c : Dev nD) : Vec F S10000x128 .f32 := scr0 (blk0 V c 0 t0) (blk0 V c 1 t0)

/-- The scoped buffers the first pass never touches (the second pass's staging buffers), each at some contents. -/
def idle0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the region is handed beside its windows: the scratch at anything, the untouched scoped buffers, the
    generator register at some state. -/
theorem entry0_eq (c : Dev nD) :
    (Pipeline.ΦA spec0 c : sProp 𝕄)
      = iprop(iprop((∃ d, owns (c : Thread nD τ) scM fullShare d) ∗ idle0 c) ∗ (∃ r, prngReg c r)) := by
  unfold Pipeline.ΦA idle0; rw [scopedRest0_eq]; simp only [scM, owns_whole]; try rfl

/-- The invariant before position `n`: before the first point the scratch holds anything; afterwards it holds
    `scrAt`. The rest rides along untouched. -/
def inv0 (c : Dev nD) : ℕ → sProp 𝕄
  | 0 => Pipeline.ΦA spec0 c
  | _ + 1 => iprop(iprop(owns (c : Thread nD τ) scM fullShare (scrAt V c) ∗ idle0 c) ∗ (∃ r, prngReg c r))

theorem inv0_pos (c : Dev nD) (n : ℕ) (hz : n ≠ 0) :
    inv0 V c n = iprop(iprop(owns (c : Thread nD τ) scM fullShare (scrAt V c) ∗ idle0 c) ∗ (∃ r, prngReg c r)) := by
  cases n with
  | zero => exact absurd rfl hz
  | succ n => rfl

/-! ## The region's proof data -/

/-- The arrays as the region finds them; after the body at point `t` each input's buffer still at its block and the
    output's at `out0` of the scratch's value and the point's blocks; the invariant `inv0`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => out0 (scrAt V c) (blk0 V c 2 t) (blk0 V c 3 t) (blk0 V c 4 t)
  Φ t := inv0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) :
    (dat0 V c).after 5 t = out0 (scrAt V c) (blk0 V c 2 t) (blk0 V c 3 t) (blk0 V c 4 t) := by dsimp only [dat0]

theorem before0_0 (c : Dev nD) (t : Fin cfg0.N) (d) : (dat0 V c).before 0 t d = blk0 V c 0 t :=
  found0_0 V (dat0 V c) (A_eq0 V c 0) (after0_0 V c) t d
theorem before0_1 (c : Dev nD) (t : Fin cfg0.N) (d) : (dat0 V c).before 1 t d = blk0 V c 1 t :=
  found0_1 V (dat0 V c) (A_eq0 V c 1) (after0_1 V c) t d
theorem before0_2 (c : Dev nD) (t : Fin cfg0.N) (d) : (dat0 V c).before 2 t d = blk0 V c 2 t :=
  found0_2 V (dat0 V c) (A_eq0 V c 2) (after0_2 V c) t d
theorem before0_3 (c : Dev nD) (t : Fin cfg0.N) (d) : (dat0 V c).before 3 t d = blk0 V c 3 t :=
  found0_3 V (dat0 V c) (A_eq0 V c 3) (after0_3 V c) t d
theorem before0_4 (c : Dev nD) (t : Fin cfg0.N) (d) : (dat0 V c).before 4 t d = blk0 V c 4 t :=
  found0_4 V (dat0 V c) (A_eq0 V c 4) (after0_4 V c) t d

theorem inv_castSucc (c : Dev nD) (t : Fin cfg0.N) : (dat0 V c).Φ t.castSucc = inv0 V c t.val := by
  dsimp only [dat0]; simp only [Fin.coe_castSucc]
theorem inv_succ (c : Dev nD) (t : Fin cfg0.N) :
    (dat0 V c).Φ t.succ = iprop(iprop(owns (c : Thread nD τ) scM fullShare (scrAt V c) ∗ idle0 c) ∗ (∃ r, prngReg c r)) := rfl

/-! ## The obligation at a point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
/-- The body at any point. At the first point the invariant hands the scratch over at anything and the branch stores
    x·W1 into it; at a later point the invariant hands it over at that value and the branch leaves it alone. Either
    way the output's buffer ends at `out0` of that value and the invariant takes the scratch back at it. -/
theorem sound0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    inv_succ, inv_castSucc, after0_0, after0_1, after0_2, after0_3, after0_4, after0_5]
  by_cases hz : t.val = 0
  · obtain rfl : t = t0 := Fin.ext hz
    rw [show inv0 V c (t0 : Fin cfg0.N).val = Pipeline.ΦA spec0 c from rfl, entry0_eq]
    iintro ⟨⟨⟨HS, Hi⟩, Hg⟩, Ho, ⟨%d0, H0⟩, ⟨%d1, H1⟩, ⟨%d2, H2⟩, ⟨%d3, H3⟩, ⟨%d4, H4⟩, ⟨%d5, H5⟩⟩
    iapply (tripleFirst c Set.univ (grid0.coords t0) _ _ _ _ _ _ _ _ _ _ _ _ _ _ ((first0_iff t0).mpr rfl)
      (blk0 V c 0 t0) (blk0 V c 1 t0) (blk0 V c 2 t0) (blk0 V c 3 t0) (blk0 V c 4 t0) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hi Hg]
    · isplitl [HS Hi]
      · isplitl [HS]; · iexact HS
        iexact Hi
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [inv0_pos V c _ hz]
    iintro ⟨⟨⟨HS, Hi⟩, Hg⟩, Ho, ⟨%d0, H0⟩, ⟨%d1, H1⟩, ⟨%d2, H2⟩, ⟨%d3, H3⟩, ⟨%d4, H4⟩, ⟨%d5, H5⟩⟩
    iapply (tripleLater c Set.univ (grid0.coords t) _ _ _ _ _ _ _ _ _ _ _ _ _ _ (fun h => hz ((first0_iff t).mp h))
      (blk0 V c 0 t) (blk0 V c 1 t) (blk0 V c 2 t) (blk0 V c 3 t) (blk0 V c 4 t) (scrAt V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hi Hg]
    · isplitl [HS Hi]
      · isplitl [HS]; · iexact HS
        iexact Hi
      iexact Hg
    isplitl [Ho]; · iexact Ho
    isplitl [H0]; · iexact H0
    isplitl [H1]; · iexact H1
    isplitl [H2]; · iexact H2
    isplitl [H3]; · iexact H3
    isplitl [H4]; · iexact H4
    iexact H5

theorem obligation0 (c : Dev nD) : BodyObligation (dat0 (F := F) V c) (defs₀ (F := F)) Variants.none () Set.univ := fun t => by
  rw [bigSep_W0, bigSep_W0]
  exact sound0 V c t

/-- What the launch hands the region is the invariant before the first point. -/
theorem enter0 (c : Dev nD) : Pipeline.ΦA spec0 c ⊢ (dat0 V c).Φ 0 := Idealize.SL.BI.Entails.refl _

/-- After the last point the invariant gives back what it was handed, the scratch's contents forgotten. -/
theorem leave0 (c : Dev nD) : (dat0 V c).Φ (Fin.last cfg0.N) ⊢ Pipeline.ΦA spec0 c := by
  rw [show (dat0 V c).Φ (Fin.last cfg0.N) = inv0 V c (Fin.last cfg0.N).val from rfl,
    inv0_pos V c _ (by rw [Fin.val_last]; have : cfg0.N = 25 := N_0; omega), entry0_eq]
  iintro ⟨⟨HS, Hi⟩, Hg⟩
  isplitl [HS Hi]
  · isplitl [HS]; · iexists _; iexact HS
    iexact Hi
  iexact Hg

end Cert.Kernel.Hand

end
-- ==== Proof.K1.lean ====
/-
  The second pass (the log-softmax layer) as a pipeline region, at the buffer contents `V` the region is entered
  with. Its grid has 25 points; point `t` sees the whole first-layer product (window 0), the bias row (window 1)
  and rows 400·t … 400·t+399 of the adjacency (window 2), and writes those rows of the result (window 3).
  Here: what each window's staging buffer holds when the body runs (its block of the array, fetched at this
  point or kept from an earlier one), what the body leaves in the output's buffer (its one store, of the
  body's arithmetic applied to the three loaded blocks), the body's triple, and the per-point obligation.
  Nothing is carried between points.
-/
import proofs.«147694_g50946902065446_cont_8to1_c_980_2_alg».proof.Proof.Gen.Kernel.Launch
import proofs.«147694_g50946902065446_cont_8to1_c_980_2_alg».proof.Proof.Gen.Kernel.Skeleton
import proofs.«147694_g50946902065446_cont_8to1_c_980_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the part of its array, as the region finds it, that the point sees. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there or the
    block index has not moved since it did. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: each a whole buffer -/

abbrev q1_z : Rect S10000x64 := Rect.unit (s := S10000x64) ![0, 0] S10000x64.size inb_S10000x64_S10000x64_0_0
abbrev q1_b : Rect S1x64 := Rect.unit (s := S1x64) ![0, 0] S1x64.size inb_S1x64_S1x64_0_0
abbrev q1_a : Rect S400x10000 := Rect.unit (s := S400x10000) ![0, 0] S400x10000.size inb_S400x10000_S400x10000_0_0
abbrev q1_o : Rect S400x64 := Rect.unit (s := S400x64) ![0, 0] S400x64.size inb_S400x64_S400x64_0_0

/-- What the body leaves in the output's staging buffer: its one store, of the stripe's log-softmax computed from the
    three loaded blocks. -/
def out1 (z : Vec F S10000x64 .f32) (b : Vec F S1x64 .f32) (a : Vec F S400x10000 .f32) : Vec F S400x64 .f32 :=
  View.canon [⟨q1_o, k1_pay1 (View.ld a q1_a) (View.ld z q1_z) (View.ld b q1_b)⟩]

/-- The one store covers the buffer. -/
theorem covers1 (p0 : Vec F S400x64 .f32) (y : S400x64.Idx) :
    ∃ pc ∈ ([⟨q1_o, p0⟩] : List (View.Piece (Elt F) S400x64 .f32)), y ∈ pc.1.set :=
  View.cover_of_tiled [⟨q1_o, p0⟩] S400x64.size (by rfl) y

/-! ## The body's triple -/

set_option maxHeartbeats 1000000 in
/-- On whole staging memrefs, the inputs' at their read contents and the output's at anything, the body runs to the
    continuation holding the inputs' as they were and the output's at `out1` of them. -/
theorem triple1 (c : Dev nD) (E : Set ℕ) (i : grid1.Coords)
    (arg1 : Memref sig .tc .vmem S10000x64 .f32) (harg1 : arg1.IsWhole) (arg2 : Memref sig .tc .vmem S1x64 .f32) (harg2 : arg2.IsWhole)
    (arg3 : Memref sig .tc .vmem S400x10000 .f32) (harg3 : arg3.IsWhole) (arg4 : Memref sig .tc .vmem S400x64 .f32) (harg4 : arg4.IsWhole)
    (z : Vec F S10000x64 .f32) (b : Vec F S1x64 .f32) (a : Vec F S400x10000 .f32) (K : PUnit → sProp 𝕄) :
    iprop(owns (c : Thread nD τ) arg1 fullShare z ∗ owns (c : Thread nD τ) arg2 fullShare b ∗ owns (c : Thread nD τ) arg3 fullShare a
        ∗ (∃ d, owns (c : Thread nD τ) arg4 fullShare d)
        ∗ (iprop(owns (c : Thread nD τ) arg1 fullShare z ∗ owns (c : Thread nD τ) arg2 fullShare b ∗ owns (c : Thread nD τ) arg3 fullShare a
            ∗ owns (c : Thread nD τ) arg4 fullShare (out1 z b a)) -∗ K ⟨⟩))
      ⊢ wp frame (wpE (defs₀ (F := F)) Variants.none c none) E (cc1__layer2_kernel i arg1 harg1 arg2 harg2 arg3 harg3 arg4 harg4) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers1 _)

/-! ## The region's proof data -/

/-- The arrays as the region finds them; after the body at point `t` each input's buffer still at its block and the
    output's at `out1` of the three blocks; the invariant only what the body never touches (the other scoped buffers
    and the generator register); nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => out1 (blk1 V c 0 t) (blk1 V c 1 t) (blk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = out1 (blk1 V c 0 t) (blk1 V c 1 t) (blk1 V c 2 t) := by dsimp only [dat1]

theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d
theorem before1_2 (c : Dev nD) (t : Fin cfg1.N) (d) : (dat1 V c).before 2 t d = blk1 V c 2 t :=
  found1_2 V (dat1 V c) (A_eq1 V c 2) (after1_2 V c) t d

/-! ## The obligation at a point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the core's
    dues pass through unread. -/
theorem sound1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (triple1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem obligation1 (c : Dev nD) : BodyObligation (dat1 (F := F) V c) (defs₀ (F := F)) Variants.none () Set.univ := fun t => by
  rw [bigSep_W1, bigSep_W1]
  exact sound1 V c t

end Cert.Kernel.Hand

end
-- ==== Proof.KRun.lean ====
/-
  The whole program run: @main is a reshape of the first bias, the first pass, a reshape of the second bias, the
  second pass. Each item takes the unscoped buffers from one valuation to the next: a reshape writes its result
  buffer; a pass overwrites its output array with what its 25 write-backs leave and changes nothing else. Every
  weakly fair execution ends with every unscoped buffer at the last valuation; the arguments are read back through
  the chain to their launch contents, and the result buffer is the second pass's output array after its write-backs.
-/
import proofs.«147694_g50946902065446_cont_8to1_c_980_2_alg».proof.Proof.K0
import proofs.«147694_g50946902065446_cont_8to1_c_980_2_alg».proof.Proof.K1
import proofs.«147694_g50946902065446_cont_8to1_c_980_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the items -/

/-- At launch. -/
abbrev W0 : Dev nD → Valuation τ sig (Elt F) := fun c b => m (c, b)
/-- After the first reshape (the first pass's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After the first pass: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After the second reshape (the second pass's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After the second pass. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-! ## Reading a buffer back through the chain -/

/-- A reshape leaves every buffer but its result as it was. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
/-- A pass leaves an input window's array as it found it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (U1 m) c).arrAt_in w hw _).trans (A_eq0 (U1 m) c w))
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (U3 m) c).arrAt_in w hw _).trans (A_eq1 (U3 m) c w))

theorem W4_main_arg0 (c : Dev nD) : W4 m c (Proc.devRef .tc main_arg0) = m ((c : Thread nD τ).loc main_arg0) :=
  (W4_of_ne m c main_arg0 (by decide)).trans <| (W3_of m c main_arg0 (by decide)).trans <| (W2_in m c 0 rfl).trans <| (W1_of m c main_arg0 (by decide)).trans rfl
theorem W4_main_arg1 (c : Dev nD) : W4 m c (Proc.devRef .tc main_arg1) = m ((c : Thread nD τ).loc main_arg1) :=
  (W4_in m c 2 rfl).trans <| (W3_of m c main_arg1 (by decide)).trans <| (W2_in m c 4 rfl).trans <| (W1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <| (W2_in m c 1 rfl).trans <| (W1_of m c main_arg2 (by decide)).trans rfl
theorem W4_main_arg3 (c : Dev nD) : W4 m c (Proc.devRef .tc main_arg3) = m ((c : Thread nD τ).loc main_arg3) :=
  (W4_of_ne m c main_arg3 (by decide)).trans <| (W3_of m c main_arg3 (by decide)).trans <| (W2_of_ne m c main_arg3 (by decide)).trans <| (W1_of m c main_arg3 (by decide)).trans rfl
theorem W4_main_arg4 (c : Dev nD) : W4 m c (Proc.devRef .tc main_arg4) = m ((c : Thread nD τ).loc main_arg4) :=
  (W4_of_ne m c main_arg4 (by decide)).trans <| (W3_of m c main_arg4 (by decide)).trans <| (W2_in m c 3 rfl).trans <| (W1_of m c main_arg4 (by decide)).trans rfl
theorem W4_main_arg5 (c : Dev nD) : W4 m c (Proc.devRef .tc main_arg5) = m ((c : Thread nD τ).loc main_arg5) :=
  (W4_of_ne m c main_arg5 (by decide)).trans <| (W3_of m c main_arg5 (by decide)).trans <| (W2_of_ne m c main_arg5 (by decide)).trans <| (W1_of m c main_arg5 (by decide)).trans rfl
/-- The result buffer ends at the second pass's output array after its write-backs. -/
theorem W4_main_v0 (c : Dev nD) : W4 m c (Proc.devRef .tc main_v0) = (dat1 (U3 m) c).arrAt 3 cfg1.N := W4_arr m c 3

/-! ## The proof data family and the thread state -/

abbrev adm : (p : Fin 2) → (pcfgs (F := F) p).Adm := fun p => (cfgs p).toPCfg_adm
/-- Both passes' proof data, each at its entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m c) ∗ ∃ r, prngReg c r)

/-! ## The passes as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (U1 m) c).loose
  hwaits := Pipeline.hwaits_of_owed_zero _ _ _ _ L lv 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (enter0 (U1 m) c)
    unfold Pipeline.ΦA
    iintro ⟨Hp, -, Hr⟩
    isplitl [Hr]; · iexact Hr
    iexact Hp
  hout c := by
    rw [Pipeline.ownSems0_none]
    refine BIBase.Entails.trans (leave0 (U1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (U3 m) c).loose
  hwaits := Pipeline.hwaits_of_owed_zero _ _ _ _ L lv 1 fun _ _ => rfl
  pre c := iprop(StableHlo.held (c : Thread nD τ) (Pipeline.ucRefs τ sig) (W3 m c) ∗ Rd c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, with the
    result buffer at the second pass's output array after its write-backs and every argument as launched. -/
theorem run_all : θ_run defs (onTc (τ := τ) (main (F := F))) ⟨m, fun _ => 0, ρ⟩ (fun r => ∀ c : Dev nD,
      r.2.mem ((c.tc : Thread nD τ).loc main_v0) = (dat1 (U3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v0 (by decide))).trans (W4_main_v0 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c)⟩)

end Cert.Kernel.Hand

end
-- ==== Proof.KI0.lean ====
/-
  The first pass (hidden layer and its product with the second weights) as a pipeline region, at the buffer contents
  `V` the region is entered with. Its grid has 25 points; point `t` sees the whole feature matrix (window 0), the first
  weights (window 1), the first bias as a row (window 2), the second weights (window 3) and rows 400·t … 400·t+399 of
  the adjacency (window 4), and writes those rows of the product (window 5). A scratch buffer is carried between the
  points: the first point stores x·W1 into it and every point reads it. So the region's invariant says, after the
  first point, WHAT the scratch holds — x·W1 of the blocks the first point saw — and every point's output is stated
  over that one value.
-/
import proofs.«147694_g50946902065446_cont_8to1_c_980_2_alg».proof.Proof.Gen.KernelIdeal.Launch
import proofs.«147694_g50946902065446_cont_8to1_c_980_2_alg».proof.Proof.Gen.KernelIdeal.Skeleton
import proofs.«147694_g50946902065446_cont_8to1_c_980_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the part of its array, as the region finds it, that the point sees. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem found0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem found0_4 {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: each a whole buffer -/

abbrev q0_x : Rect S10000x128 := Rect.unit (s := S10000x128) ![0, 0] S10000x128.size inb_S10000x128_S10000x128_0_0
abbrev q0_w1 : Rect S128x128 := Rect.unit (s := S128x128) ![0, 0] S128x128.size inb_S128x128_S128x128_0_0
abbrev q0_b : Rect S1x128 := Rect.unit (s := S1x128) ![0, 0] S1x128.size inb_S1x128_S1x128_0_0
abbrev q0_w2 : Rect S128x64 := Rect.unit (s := S128x64) ![0, 0] S128x64.size inb_S128x64_S128x64_0_0
abbrev q0_a : Rect S400x10000 := Rect.unit (s := S400x10000) ![0, 0] S400x10000.size inb_S400x10000_S400x10000_0_0
abbrev q0_o : Rect S400x64 := Rect.unit (s := S400x64) ![0, 0] S400x64.size inb_S400x64_S400x64_0_0

/-- What the first point's store leaves in the scratch: x·W1 of the loaded feature and weight blocks. -/
def scr0 (x : Vec F S10000x128 .f32) (w1 : Vec F S128x128 .f32) : Vec F S10000x128 .f32 :=
  View.canon [⟨q0_x, k0_pay1 (View.ld x q0_x) (View.ld w1 q0_w1)⟩]

/-- What a point leaves in the output's staging buffer when the scratch reads `s`: its one store, of the stripe
    computed from the adjacency block, the scratch, the bias row and the second weights. -/
def out0 (s : Vec F S10000x128 .f32) (b : Vec F S1x128 .f32) (w2 : Vec F S128x64 .f32) (a : Vec F S400x10000 .f32) : Vec F S400x64 .f32 :=
  View.canon [⟨q0_o, k0_pay2 (View.ld a q0_a) (View.ld s q0_x) (View.ld b q0_b) (View.ld w2 q0_w2)⟩]

theorem covers0_o (p0 : Vec F S400x64 .f32) (y : S400x64.Idx) :
    ∃ pc ∈ ([⟨q0_o, p0⟩] : List (View.Piece (Elt F) S400x64 .f32)), y ∈ pc.1.set :=
  View.cover_of_tiled [⟨q0_o, p0⟩] S400x64.size (by rfl) y
theorem covers0_s (p0 : Vec F S10000x128 .f32) (y : S10000x128.Idx) :
    ∃ pc ∈ ([⟨q0_x, p0⟩] : List (View.Piece (Elt F) S10000x128 .f32)), y ∈ pc.1.set :=
  View.cover_of_tiled [⟨q0_x, p0⟩] S10000x128.size (by rfl) y

/-! ## The branch on the grid coordinate -/

/-- The body's condition "this is the first point", from the grid coordinate. -/
abbrev first0 (i : grid0.Coords) : Prop :=
  (Scalar.cmpi .ne (Scalar.extui (Scalar.cmpi .eq (BitVec.ofNat 32 (i 0).val) 0#32)) 0#32) = 1#1
/-- It holds at point 0 and nowhere else — decided over the 25 points. -/
theorem first0_iff : ∀ t : Fin cfg0.N, first0 (grid0.coords t) ↔ t.val = 0 :=
  (by decide +kernel : ∀ t : Fin grid0.N, first0 (grid0.coords t) ↔ t.val = 0)

/-! ## The body's triples, one per way the branch goes -/

set_option maxHeartbeats 2000000 in
/-- At the first point: on whole memrefs, the inputs' at their read contents, the output's and the scratch at
    anything, the body stores x·W1 into the scratch, reads it back and stores the stripe; it ends with the inputs' as
    they were, the scratch at `scr0` and the output's at `out0` of that. -/
theorem tripleFirst (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x64 .f32) (harg4 : arg4.IsWhole)
    (arg5 : Memref sig .tc .vmem S400x10000 .f32) (harg5 : arg5.IsWhole) (arg6 : Memref sig .tc .vmem S400x64 .f32) (harg6 : arg6.IsWhole)
    (arg7 : Memref sig .tc .vmem S10000x128 .f32) (harg7 : arg7.IsWhole) (hc : first0 i)
    (x : Vec F S10000x128 .f32) (w1 : Vec F S128x128 .f32) (b : Vec F S1x128 .f32) (w2 : Vec F S128x64 .f32) (a : Vec F S400x10000 .f32)
    (K : PUnit → sProp 𝕄) :
    iprop(owns (c : Thread nD τ) arg1 fullShare x ∗ owns (c : Thread nD τ) arg2 fullShare w1 ∗ owns (c : Thread nD τ) arg3 fullShare b
        ∗ owns (c : Thread nD τ) arg4 fullShare w2 ∗ owns (c : Thread nD τ) arg5 fullShare a
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare w1 ∗ owns (c : Thread nD τ) arg3 fullShare b
        ∗ owns (c : Thread nD τ) arg4 fullShare w2 ∗ owns (c : Thread nD τ) arg5 fullShare a
            ∗ owns (c : Thread nD τ) arg6 fullShare (out0 (scr0 x w1) b w2 a) ∗ owns (c : Thread nD τ) arg7 fullShare (scr0 x w1)) -∗ K ⟨⟩))
      ⊢ wp frame (wpE (defs₀ (F := F)) Variants.none c none) E (cc0__layer1_kernel i arg1 harg1 arg2 harg2 arg3 harg3 arg4 harg4 arg5 harg5 arg6 harg6 arg7 harg7) K := by
  simp only [cc0__layer1_kernel_eq_skeleton]; unfold cc0__layer1_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    unfold out0 scr0
    rw [View.readCov_eq_canon_ld _ _ _ (covers0_s _)]
    exact View.read_writes_eq_canon _ _ _ (covers0_o _)
  iexists _; isplitr
  swap; · iexact H7
  ipureintro
  sl_unfold_run_names
  exact View.read_writes_eq_canon _ _ _ (covers0_s _)

set_option maxHeartbeats 2000000 in
/-- At a later point: the scratch is handed over reading `s`; the branch is skipped, the body reads the scratch and
    stores the stripe; it ends with the inputs' and the scratch as they were and the output's at `out0 s`. -/
theorem tripleLater (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x64 .f32) (harg4 : arg4.IsWhole)
    (arg5 : Memref sig .tc .vmem S400x10000 .f32) (harg5 : arg5.IsWhole) (arg6 : Memref sig .tc .vmem S400x64 .f32) (harg6 : arg6.IsWhole)
    (arg7 : Memref sig .tc .vmem S10000x128 .f32) (harg7 : arg7.IsWhole) (hc : ¬first0 i)
    (x : Vec F S10000x128 .f32) (w1 : Vec F S128x128 .f32) (b : Vec F S1x128 .f32) (w2 : Vec F S128x64 .f32) (a : Vec F S400x10000 .f32)
    (s : Vec F S10000x128 .f32) (K : PUnit → sProp 𝕄) :
    iprop(owns (c : Thread nD τ) arg1 fullShare x ∗ owns (c : Thread nD τ) arg2 fullShare w1 ∗ owns (c : Thread nD τ) arg3 fullShare b
        ∗ owns (c : Thread nD τ) arg4 fullShare w2 ∗ owns (c : Thread nD τ) arg5 fullShare a
        ∗ (∃ d, owns (c : Thread nD τ) arg6 fullShare d) ∗ owns (c : Thread nD τ) arg7 fullShare s
        ∗ (iprop(owns (c : Thread nD τ) arg1 fullShare x ∗ owns (c : Thread nD τ) arg2 fullShare w1 ∗ owns (c : Thread nD τ) arg3 fullShare b
        ∗ owns (c : Thread nD τ) arg4 fullShare w2 ∗ owns (c : Thread nD τ) arg5 fullShare a
            ∗ owns (c : Thread nD τ) arg6 fullShare (out0 s b w2 a) ∗ owns (c : Thread nD τ) arg7 fullShare s) -∗ K ⟨⟩))
      ⊢ wp frame (wpE (defs₀ (F := F)) Variants.none c none) E (cc0__layer1_kernel i arg1 harg1 arg2 harg2 arg3 harg3 arg4 harg4 arg5 harg5 arg6 harg6 arg7 harg7) K := by
  simp only [cc0__layer1_kernel_eq_skeleton]; unfold cc0__layer1_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1; subst hf2; subst hf3; subst hf4; subst hf5; subst hf7
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers0_o _)
  iexists f7; isplitr; · ipureintro; rfl
  iexact H7

/-! ## The region's invariant: the scratch across the points -/

/-- The scratch operand: a whole scoped buffer of the kernel's own, passed beside the windows. -/
abbrev scM : Memref sig .tc .vmem S10000x128 .f32 := Memref.whole cc0_scratch0

/-- The grid's first point. -/
abbrev t0 : Fin cfg0.N := ⟨0, by decide⟩

/-- What the scratch holds after the first point: x·W1 of the blocks that point saw. -/
def scrAt (c : Dev nD) : Vec F S10000x128 .f32 := scr0 (blk0 V c 0 t0) (blk0 V c 1 t0)

/-- The scoped buffers the first pass never touches (the second pass's staging buffers), each at some contents. -/
def idle0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the region is handed beside its windows: the scratch at anything, the untouched scoped buffers, the
    generator register at some state. -/
theorem entry0_eq (c : Dev nD) :
    (Pipeline.ΦA spec0 c : sProp 𝕄)
      = iprop(iprop((∃ d, owns (c : Thread nD τ) scM fullShare d) ∗ idle0 c) ∗ (∃ r, prngReg c r)) := by
  unfold Pipeline.ΦA idle0; rw [scopedRest0_eq]; simp only [scM, owns_whole]; try rfl

/-- The invariant before position `n`: before the first point the scratch holds anything; afterwards it holds
    `scrAt`. The rest rides along untouched. -/
def inv0 (c : Dev nD) : ℕ → sProp 𝕄
  | 0 => Pipeline.ΦA spec0 c
  | _ + 1 => iprop(iprop(owns (c : Thread nD τ) scM fullShare (scrAt V c) ∗ idle0 c) ∗ (∃ r, prngReg c r))

theorem inv0_pos (c : Dev nD) (n : ℕ) (hz : n ≠ 0) :
    inv0 V c n = iprop(iprop(owns (c : Thread nD τ) scM fullShare (scrAt V c) ∗ idle0 c) ∗ (∃ r, prngReg c r)) := by
  cases n with
  | zero => exact absurd rfl hz
  | succ n => rfl

/-! ## The region's proof data -/

/-- The arrays as the region finds them; after the body at point `t` each input's buffer still at its block and the
    output's at `out0` of the scratch's value and the point's blocks; the invariant `inv0`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => out0 (scrAt V c) (blk0 V c 2 t) (blk0 V c 3 t) (blk0 V c 4 t)
  Φ t := inv0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) :
    (dat0 V c).after 5 t = out0 (scrAt V c) (blk0 V c 2 t) (blk0 V c 3 t) (blk0 V c 4 t) := by dsimp only [dat0]

theorem before0_0 (c : Dev nD) (t : Fin cfg0.N) (d) : (dat0 V c).before 0 t d = blk0 V c 0 t :=
  found0_0 V (dat0 V c) (A_eq0 V c 0) (after0_0 V c) t d
theorem before0_1 (c : Dev nD) (t : Fin cfg0.N) (d) : (dat0 V c).before 1 t d = blk0 V c 1 t :=
  found0_1 V (dat0 V c) (A_eq0 V c 1) (after0_1 V c) t d
theorem before0_2 (c : Dev nD) (t : Fin cfg0.N) (d) : (dat0 V c).before 2 t d = blk0 V c 2 t :=
  found0_2 V (dat0 V c) (A_eq0 V c 2) (after0_2 V c) t d
theorem before0_3 (c : Dev nD) (t : Fin cfg0.N) (d) : (dat0 V c).before 3 t d = blk0 V c 3 t :=
  found0_3 V (dat0 V c) (A_eq0 V c 3) (after0_3 V c) t d
theorem before0_4 (c : Dev nD) (t : Fin cfg0.N) (d) : (dat0 V c).before 4 t d = blk0 V c 4 t :=
  found0_4 V (dat0 V c) (A_eq0 V c 4) (after0_4 V c) t d

theorem inv_castSucc (c : Dev nD) (t : Fin cfg0.N) : (dat0 V c).Φ t.castSucc = inv0 V c t.val := by
  dsimp only [dat0]; simp only [Fin.coe_castSucc]
theorem inv_succ (c : Dev nD) (t : Fin cfg0.N) :
    (dat0 V c).Φ t.succ = iprop(iprop(owns (c : Thread nD τ) scM fullShare (scrAt V c) ∗ idle0 c) ∗ (∃ r, prngReg c r)) := rfl

/-! ## The obligation at a point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
/-- The body at any point. At the first point the invariant hands the scratch over at anything and the branch stores
    x·W1 into it; at a later point the invariant hands it over at that value and the branch leaves it alone. Either
    way the output's buffer ends at `out0` of that value and the invariant takes the scratch back at it. -/
theorem sound0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    inv_succ, inv_castSucc, after0_0, after0_1, after0_2, after0_3, after0_4, after0_5]
  by_cases hz : t.val = 0
  · obtain rfl : t = t0 := Fin.ext hz
    rw [show inv0 V c (t0 : Fin cfg0.N).val = Pipeline.ΦA spec0 c from rfl, entry0_eq]
    iintro ⟨⟨⟨HS, Hi⟩, Hg⟩, Ho, ⟨%d0, H0⟩, ⟨%d1, H1⟩, ⟨%d2, H2⟩, ⟨%d3, H3⟩, ⟨%d4, H4⟩, ⟨%d5, H5⟩⟩
    iapply (tripleFirst c Set.univ (grid0.coords t0) _ _ _ _ _ _ _ _ _ _ _ _ _ _ ((first0_iff t0).mpr rfl)
      (blk0 V c 0 t0) (blk0 V c 1 t0) (blk0 V c 2 t0) (blk0 V c 3 t0) (blk0 V c 4 t0) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hi Hg]
    · isplitl [HS Hi]
      · isplitl [HS]; · iexact HS
        iexact Hi
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [inv0_pos V c _ hz]
    iintro ⟨⟨⟨HS, Hi⟩, Hg⟩, Ho, ⟨%d0, H0⟩, ⟨%d1, H1⟩, ⟨%d2, H2⟩, ⟨%d3, H3⟩, ⟨%d4, H4⟩, ⟨%d5, H5⟩⟩
    iapply (tripleLater c Set.univ (grid0.coords t) _ _ _ _ _ _ _ _ _ _ _ _ _ _ (fun h => hz ((first0_iff t).mp h))
      (blk0 V c 0 t) (blk0 V c 1 t) (blk0 V c 2 t) (blk0 V c 3 t) (blk0 V c 4 t) (scrAt V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hi Hg]
    · isplitl [HS Hi]
      · isplitl [HS]; · iexact HS
        iexact Hi
      iexact Hg
    isplitl [Ho]; · iexact Ho
    isplitl [H0]; · iexact H0
    isplitl [H1]; · iexact H1
    isplitl [H2]; · iexact H2
    isplitl [H3]; · iexact H3
    isplitl [H4]; · iexact H4
    iexact H5

theorem obligation0 (c : Dev nD) : BodyObligation (dat0 (F := F) V c) (defs₀ (F := F)) Variants.none () Set.univ := fun t => by
  rw [bigSep_W0, bigSep_W0]
  exact sound0 V c t

/-- What the launch hands the region is the invariant before the first point. -/
theorem enter0 (c : Dev nD) : Pipeline.ΦA spec0 c ⊢ (dat0 V c).Φ 0 := Idealize.SL.BI.Entails.refl _

/-- After the last point the invariant gives back what it was handed, the scratch's contents forgotten. -/
theorem leave0 (c : Dev nD) : (dat0 V c).Φ (Fin.last cfg0.N) ⊢ Pipeline.ΦA spec0 c := by
  rw [show (dat0 V c).Φ (Fin.last cfg0.N) = inv0 V c (Fin.last cfg0.N).val from rfl,
    inv0_pos V c _ (by rw [Fin.val_last]; have : cfg0.N = 25 := N_0; omega), entry0_eq]
  iintro ⟨⟨HS, Hi⟩, Hg⟩
  isplitl [HS Hi]
  · isplitl [HS]; · iexists _; iexact HS
    iexact Hi
  iexact Hg

end Cert.KernelIdeal.Hand

end
-- ==== Proof.KI1.lean ====
/-
  The second pass (the log-softmax layer) as a pipeline region, at the buffer contents `V` the region is entered
  with. Its grid has 25 points; point `t` sees the whole first-layer product (window 0), the bias row (window 1)
  and rows 400·t … 400·t+399 of the adjacency (window 2), and writes those rows of the result (window 3).
  Here: what each window's staging buffer holds when the body runs (its block of the array, fetched at this
  point or kept from an earlier one), what the body leaves in the output's buffer (its one store, of the
  body's arithmetic applied to the three loaded blocks), the body's triple, and the per-point obligation.
  Nothing is carried between points.
-/
import proofs.«147694_g50946902065446_cont_8to1_c_980_2_alg».proof.Proof.Gen.KernelIdeal.Launch
import proofs.«147694_g50946902065446_cont_8to1_c_980_2_alg».proof.Proof.Gen.KernelIdeal.Skeleton
import proofs.«147694_g50946902065446_cont_8to1_c_980_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the part of its array, as the region finds it, that the point sees. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there or the
    block index has not moved since it did. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: each a whole buffer -/

abbrev q1_z : Rect S10000x64 := Rect.unit (s := S10000x64) ![0, 0] S10000x64.size inb_S10000x64_S10000x64_0_0
abbrev q1_b : Rect S1x64 := Rect.unit (s := S1x64) ![0, 0] S1x64.size inb_S1x64_S1x64_0_0
abbrev q1_a : Rect S400x10000 := Rect.unit (s := S400x10000) ![0, 0] S400x10000.size inb_S400x10000_S400x10000_0_0
abbrev q1_o : Rect S400x64 := Rect.unit (s := S400x64) ![0, 0] S400x64.size inb_S400x64_S400x64_0_0

/-- What the body leaves in the output's staging buffer: its one store, of the stripe's log-softmax computed from the
    three loaded blocks. -/
def out1 (z : Vec F S10000x64 .f32) (b : Vec F S1x64 .f32) (a : Vec F S400x10000 .f32) : Vec F S400x64 .f32 :=
  View.canon [⟨q1_o, k1_pay1 (View.ld a q1_a) (View.ld z q1_z) (View.ld b q1_b)⟩]

/-- The one store covers the buffer. -/
theorem covers1 (p0 : Vec F S400x64 .f32) (y : S400x64.Idx) :
    ∃ pc ∈ ([⟨q1_o, p0⟩] : List (View.Piece (Elt F) S400x64 .f32)), y ∈ pc.1.set :=
  View.cover_of_tiled [⟨q1_o, p0⟩] S400x64.size (by rfl) y

/-! ## The body's triple -/

set_option maxHeartbeats 1000000 in
/-- On whole staging memrefs, the inputs' at their read contents and the output's at anything, the body runs to the
    continuation holding the inputs' as they were and the output's at `out1` of them. -/
theorem triple1 (c : Dev nD) (E : Set ℕ) (i : grid1.Coords)
    (arg1 : Memref sig .tc .vmem S10000x64 .f32) (harg1 : arg1.IsWhole) (arg2 : Memref sig .tc .vmem S1x64 .f32) (harg2 : arg2.IsWhole)
    (arg3 : Memref sig .tc .vmem S400x10000 .f32) (harg3 : arg3.IsWhole) (arg4 : Memref sig .tc .vmem S400x64 .f32) (harg4 : arg4.IsWhole)
    (z : Vec F S10000x64 .f32) (b : Vec F S1x64 .f32) (a : Vec F S400x10000 .f32) (K : PUnit → sProp 𝕄) :
    iprop(owns (c : Thread nD τ) arg1 fullShare z ∗ owns (c : Thread nD τ) arg2 fullShare b ∗ owns (c : Thread nD τ) arg3 fullShare a
        ∗ (∃ d, owns (c : Thread nD τ) arg4 fullShare d)
        ∗ (iprop(owns (c : Thread nD τ) arg1 fullShare z ∗ owns (c : Thread nD τ) arg2 fullShare b ∗ owns (c : Thread nD τ) arg3 fullShare a
            ∗ owns (c : Thread nD τ) arg4 fullShare (out1 z b a)) -∗ K ⟨⟩))
      ⊢ wp frame (wpE (defs₀ (F := F)) Variants.none c none) E (cc1__layer2_kernel i arg1 harg1 arg2 harg2 arg3 harg3 arg4 harg4) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers1 _)

/-! ## The region's proof data -/

/-- The arrays as the region finds them; after the body at point `t` each input's buffer still at its block and the
    output's at `out1` of the three blocks; the invariant only what the body never touches (the other scoped buffers
    and the generator register); nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => out1 (blk1 V c 0 t) (blk1 V c 1 t) (blk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = out1 (blk1 V c 0 t) (blk1 V c 1 t) (blk1 V c 2 t) := by dsimp only [dat1]

theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d
theorem before1_2 (c : Dev nD) (t : Fin cfg1.N) (d) : (dat1 V c).before 2 t d = blk1 V c 2 t :=
  found1_2 V (dat1 V c) (A_eq1 V c 2) (after1_2 V c) t d

/-! ## The obligation at a point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the core's
    dues pass through unread. -/
theorem sound1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (triple1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem obligation1 (c : Dev nD) : BodyObligation (dat1 (F := F) V c) (defs₀ (F := F)) Variants.none () Set.univ := fun t => by
  rw [bigSep_W1, bigSep_W1]
  exact sound1 V c t

end Cert.KernelIdeal.Hand

end
-- ==== Proof.KIRun.lean ====
/-
  The whole program run: @main is a reshape of the first bias, the first pass, a reshape of the second bias, the
  second pass. Each item takes the unscoped buffers from one valuation to the next: a reshape writes its result
  buffer; a pass overwrites its output array with what its 25 write-backs leave and changes nothing else. Every
  weakly fair execution ends with every unscoped buffer at the last valuation; the arguments are read back through
  the chain to their launch contents, and the result buffer is the second pass's output array after its write-backs.
-/
import proofs.«147694_g50946902065446_cont_8to1_c_980_2_alg».proof.Proof.KI0
import proofs.«147694_g50946902065446_cont_8to1_c_980_2_alg».proof.Proof.KI1
import proofs.«147694_g50946902065446_cont_8to1_c_980_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the items -/

/-- At launch. -/
abbrev W0 : Dev nD → Valuation τ sig (Elt F) := fun c b => m (c, b)
/-- After the first reshape (the first pass's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After the first pass: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After the second reshape (the second pass's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After the second pass. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-! ## Reading a buffer back through the chain -/

/-- A reshape leaves every buffer but its result as it was. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
/-- A pass leaves an input window's array as it found it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (U1 m) c).arrAt_in w hw _).trans (A_eq0 (U1 m) c w))
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (U3 m) c).arrAt_in w hw _).trans (A_eq1 (U3 m) c w))

theorem W4_main_arg0 (c : Dev nD) : W4 m c (Proc.devRef .tc main_arg0) = m ((c : Thread nD τ).loc main_arg0) :=
  (W4_of_ne m c main_arg0 (by decide)).trans <| (W3_of m c main_arg0 (by decide)).trans <| (W2_in m c 0 rfl).trans <| (W1_of m c main_arg0 (by decide)).trans rfl
theorem W4_main_arg1 (c : Dev nD) : W4 m c (Proc.devRef .tc main_arg1) = m ((c : Thread nD τ).loc main_arg1) :=
  (W4_in m c 2 rfl).trans <| (W3_of m c main_arg1 (by decide)).trans <| (W2_in m c 4 rfl).trans <| (W1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <| (W2_in m c 1 rfl).trans <| (W1_of m c main_arg2 (by decide)).trans rfl
theorem W4_main_arg3 (c : Dev nD) : W4 m c (Proc.devRef .tc main_arg3) = m ((c : Thread nD τ).loc main_arg3) :=
  (W4_of_ne m c main_arg3 (by decide)).trans <| (W3_of m c main_arg3 (by decide)).trans <| (W2_of_ne m c main_arg3 (by decide)).trans <| (W1_of m c main_arg3 (by decide)).trans rfl
theorem W4_main_arg4 (c : Dev nD) : W4 m c (Proc.devRef .tc main_arg4) = m ((c : Thread nD τ).loc main_arg4) :=
  (W4_of_ne m c main_arg4 (by decide)).trans <| (W3_of m c main_arg4 (by decide)).trans <| (W2_in m c 3 rfl).trans <| (W1_of m c main_arg4 (by decide)).trans rfl
theorem W4_main_arg5 (c : Dev nD) : W4 m c (Proc.devRef .tc main_arg5) = m ((c : Thread nD τ).loc main_arg5) :=
  (W4_of_ne m c main_arg5 (by decide)).trans <| (W3_of m c main_arg5 (by decide)).trans <| (W2_of_ne m c main_arg5 (by decide)).trans <| (W1_of m c main_arg5 (by decide)).trans rfl
/-- The result buffer ends at the second pass's output array after its write-backs. -/
theorem W4_main_v0 (c : Dev nD) : W4 m c (Proc.devRef .tc main_v0) = (dat1 (U3 m) c).arrAt 3 cfg1.N := W4_arr m c 3

/-! ## The proof data family and the thread state -/

abbrev adm : (p : Fin 2) → (pcfgs (F := F) p).Adm := fun p => (cfgs p).toPCfg_adm
/-- Both passes' proof data, each at its entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m c) ∗ ∃ r, prngReg c r)

/-! ## The passes as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (U1 m) c).loose
  hwaits := Pipeline.hwaits_of_owed_zero _ _ _ _ L lv 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (enter0 (U1 m) c)
    unfold Pipeline.ΦA
    iintro ⟨Hp, -, Hr⟩
    isplitl [Hr]; · iexact Hr
    iexact Hp
  hout c := by
    rw [Pipeline.ownSems0_none]
    refine BIBase.Entails.trans (leave0 (U1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (U3 m) c).loose
  hwaits := Pipeline.hwaits_of_owed_zero _ _ _ _ L lv 1 fun _ _ => rfl
  pre c := iprop(StableHlo.held (c : Thread nD τ) (Pipeline.ucRefs τ sig) (W3 m c) ∗ Rd c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, with the
    result buffer at the second pass's output array after its write-backs and every argument as launched. -/
theorem run_all : θ_run defs (onTc (τ := τ) (main (F := F))) ⟨m, fun _ => 0, ρ⟩ (fun r => ∀ c : Dev nD,
      r.2.mem ((c.tc : Thread nD τ).loc main_v0) = (dat1 (U3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v0 (by decide))).trans (W4_main_v0 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c)⟩)

end Cert.KernelIdeal.Hand

end
-- ==== Proof.Spec.lean ====
/-
  The mathematics both programs compute, stated once over the argument arrays as functions of their
  indices on the extended reals: a two-layer graph convolution with a dense adjacency and a row-wise
  log-softmax,

      xw     = x · W1                      (10000 × 128)
      hid    = max (adj · xw + b1) 0       (10000 × 128)
      hw     = hid · W2                    (10000 × 64)
      logit  = adj · hw + b2               (10000 × 64)
      out    = (logit − M) − log Σ_q exp (logit_q − M),   M the row's maximum.

  Every sum is a finite sum over a whole contraction axis; the row maximum is the fold of `max` over the
  64 classes from the float pattern of −∞ (the bottom of the extended reals), which is how both programs take it.
  Nothing here mentions a program.
-/
import Idealize.ShloMosaic.PureOps.Ideal
import Idealize.ShloMosaic.Lib.ValueIdx

noncomputable section

namespace Cert.GraphConv

open Idealize.ShloMosaic Idealize.ShloMosaic.ValueIdx

/-- A matrix of extended reals as a function of its two-coordinate index. -/
abbrev Mat (a b : Nat) : Type := (⟨2, ![a, b]⟩ : Shape).Idx → EReal
/-- A vector of extended reals as a function of its one-coordinate index. -/
abbrev Vc (a : Nat) : Type := (⟨1, ![a]⟩ : Shape).Idx → EReal

/-- The float zero both programs clamp the hidden layer against. -/
abbrev zeroW : EReal := Ideal.ofBits .f32 0x00000000#32
/-- The float −∞ both programs start a row maximum from. -/
abbrev negInfW : EReal := Ideal.ofBits .f32 0xFF800000#32

/-- `x · W1` at row `k`, hidden unit `h`. -/
def xw (x : Mat 10000 128) (w1 : Mat 128 128) (k : Fin 10000) (h : Fin 128) : EReal :=
  ∑ f : Fin 128, x (ix2 k f) * w1 (ix2 f h)

/-- The hidden activation: `max (adj · (x · W1) + b1) 0` at node `i`, hidden unit `h`. -/
def hid (x : Mat 10000 128) (adj : Mat 10000 10000) (w1 : Mat 128 128) (b1 : Vc 128) (i : Fin 10000) (h : Fin 128) : EReal :=
  max ((∑ k : Fin 10000, adj (ix2 i k) * xw x w1 k h) + b1 (ix1 h)) zeroW

/-- `hid · W2` at node `k`, class `q`. -/
def hw (x : Mat 10000 128) (adj : Mat 10000 10000) (w1 : Mat 128 128) (b1 : Vc 128) (w2 : Mat 128 64)
    (k : Fin 10000) (q : Fin 64) : EReal :=
  ∑ h : Fin 128, hid x adj w1 b1 k h * w2 (ix2 h q)

/-- The second layer's logits `adj · Z + b2` from any first-layer product `Z` (a function of node and class). -/
def logitOf (adj : Mat 10000 10000) (b2 : Vc 64) (Z : Fin 10000 → Fin 64 → EReal) (i : Fin 10000) (q : Fin 64) : EReal :=
  (∑ k : Fin 10000, adj (ix2 i k) * Z k q) + b2 (ix1 q)

/-- A row's log-softmax entry from the row of logits `L`: shift by the row maximum, subtract the log of the
    sum of exponentials of the shifted row. -/
def lsm (L : Fin 64 → EReal) (q : Fin 64) : EReal :=
  (L q - (Finset.univ : Finset (Fin 64)).fold max negInfW L)
    - Ideal.log (∑ q' : Fin 64, Ideal.exp (L q' - (Finset.univ : Finset (Fin 64)).fold max negInfW L))

/-- The network's output at node `i`, class `q`. -/
def out (x : Mat 10000 128) (adj : Mat 10000 10000) (w1 : Mat 128 128) (b1 : Vc 128) (w2 : Mat 128 64) (b2 : Vc 64)
    (i : Fin 10000) (q : Fin 64) : EReal :=
  lsm (logitOf adj b2 (hw x adj w1 b1 w2) i) q

/-- The same as a function of the result array's index. -/
def outArr (x : Mat 10000 128) (adj : Mat 10000 10000) (w1 : Mat 128 128) (b1 : Vc 128) (w2 : Mat 128 64) (b2 : Vc 64) :
    Mat 10000 64 :=
  fun j => out x adj w1 b1 w2 b2 (j 0) (j 1)

end Cert.GraphConv

end
-- ==== Proof.Payload.lean ====
/-
  The arithmetic of the two kernel bodies, read one entry at a time on the extended reals.

  Pass 1 forms the product x · W1 once, and for each stripe of 400 rows of the adjacency the stripe of
  max (adj · xw + b1) 0 · W2; pass 2 forms, for each stripe, the row-wise log-softmax of adj · hw + b2.
  Each of the three stored values is a composition of whole-vector operations; here each is read at the
  entry (p, q): a matrix product into a zero accumulator is the finite sum of products over the one
  contracted axis, a broadcast row or column reads the one entry it repeats, a lane reduction is the sum
  (or the fold of max) over the 64 lanes of its row, and every pointwise operation acts on the entries.
-/
import proofs.«147694_g50946902065446_cont_8to1_c_980_2_alg».proof.Proof.Spec
import proofs.«147694_g50946902065446_cont_8to1_c_980_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.GraphConv Idealize.ShloMosaic Idealize.ShloMosaic.ValueIdx

/-! ## A matrix product into the zero accumulator, at an entry -/

/-- A product of an `m × K` by a `K × n` matrix contracted over the one shared axis, accumulated into zero, is at
    entry `(p, q)` the sum over `k` of the left factor at `(p, k)` times the right factor at `(k, q)`. The four
    hypotheses say where the dimension numbers `D` send an output index and a contraction index. -/
theorem matmul_zero_ix2 {m K n : Nat} (D : DotDims ⟨2, ![m, K]⟩ ⟨2, ![K, n]⟩ ⟨2, ![m, n]⟩)
    (hr : D.contr.rank = 1) (hs : D.contr.size ⟨0, by omega⟩ = K)
    (l0 : ∀ (i : (⟨2, ![m, n]⟩ : Shape).Idx) (c : D.contr.Idx), (D.lhsIdx i c 0).val = (i 0).val)
    (l1 : ∀ (i : (⟨2, ![m, n]⟩ : Shape).Idx) (c : D.contr.Idx), (D.lhsIdx i c 1).val = (c ⟨0, by omega⟩).val)
    (r0 : ∀ (i : (⟨2, ![m, n]⟩ : Shape).Idx) (c : D.contr.Idx), (D.rhsIdx i c 0).val = (c ⟨0, by omega⟩).val)
    (r1 : ∀ (i : (⟨2, ![m, n]⟩ : Shape).Idx) (c : D.contr.Idx), (D.rhsIdx i c 1).val = (i 1).val)
    (a : FVec Ideal ⟨2, ![m, K]⟩ .f32) (b : FVec Ideal ⟨2, ![K, n]⟩ .f32) (p : Fin m) (q : Fin n) :
    matmul D none a b (constant (F := Ideal) ⟨2, ![m, n]⟩ .f32 0x00000000#32) (ix2 p q)
      = ∑ k : Fin K, a (ix2 p k) * b (ix2 k q) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact l0 _ _
    | ⟨1, _⟩ => exact (l1 _ _).trans hk)
  have er : D.rhsIdx (ix2 p q) ((contrEquiv1 D K hr hs).symm k) = ix2 k q := funext fun ax => Fin.ext (by
    match ax with
    | ⟨0, _⟩ => exact (r0 _ _).trans hk
    | ⟨1, _⟩ => exact r1 _ _)
  rw [el, er]

/-! ## The four products of the two passes -/

/-- The features times the first weight matrix: 10000 × 128 by 128 × 128. -/
theorem mm_x_w1 (a : FVec Ideal S10000x128 .f32) (b : FVec Ideal S128x128 .f32) (p : Fin 10000) (q : Fin 128) :
    matmul dot_S10000x128_S128x128_S10000x128_1_0_0_1_n_n none a b (constant (F := Ideal) S10000x128 .f32 0x00000000#32) (ix2 p q)
      = ∑ k : Fin 128, a (ix2 p k) * b (ix2 k q) := by
  refine matmul_zero_ix2 dot_S10000x128_S128x128_S10000x128_1_0_0_1_n_n rfl rfl ?_ ?_ ?_ ?_ a b p q
  · intro i c
    unfold DotDims.lhsIdx
    rw [dif_neg (show ¬(0 : Fin S10000x128.rank) ∈ dot_S10000x128_S128x128_S10000x128_1_0_0_1_n_n.lhsBatch by decide),
      dif_pos (show (0 : Fin S10000x128.rank) ∈ dot_S10000x128_S128x128_S10000x128_1_0_0_1_n_n.lhsNonContracting by decide)]
    rfl
  · exact fun i c => dot_S10000x128_S128x128_S10000x128_1_0_0_1_n_n.lhsIdx_val_of_single rfl i c
  · exact fun i c => dot_S10000x128_S128x128_S10000x128_1_0_0_1_n_n.rhsIdx_val_of_single rfl i c
  · intro i c
    unfold DotDims.rhsIdx
    rw [dif_neg (show ¬(1 : Fin S128x128.rank) ∈ dot_S10000x128_S128x128_S10000x128_1_0_0_1_n_n.rhsBatch by decide),
      dif_pos (show (1 : Fin S128x128.rank) ∈ dot_S10000x128_S128x128_S10000x128_1_0_0_1_n_n.rhsNonContracting by decide)]
    rfl

/-- A stripe of 400 rows of the adjacency times the 10000 × 128 first-layer product. -/
theorem mm_adj_xw (a : FVec Ideal S400x10000 .f32) (b : FVec Ideal S10000x128 .f32) (p : Fin 400) (q : Fin 128) :
    matmul dot_S400x10000_S10000x128_S400x128_1_0_0_1_n_n none a b (constant (F := Ideal) S400x128 .f32 0x00000000#32) (ix2 p q)
      = ∑ k : Fin 10000, a (ix2 p k) * b (ix2 k q) := by
  refine matmul_zero_ix2 dot_S400x10000_S10000x128_S400x128_1_0_0_1_n_n rfl rfl ?_ ?_ ?_ ?_ a b p q
  · intro i c
    unfold DotDims.lhsIdx
    rw [dif_neg (show ¬(0 : Fin S400x10000.rank) ∈ dot_S400x10000_S10000x128_S400x128_1_0_0_1_n_n.lhsBatch by decide),
      dif_pos (show (0 : Fin S400x10000.rank) ∈ dot_S400x10000_S10000x128_S400x128_1_0_0_1_n_n.lhsNonContracting by decide)]
    rfl
  · exact fun i c => dot_S400x10000_S10000x128_S400x128_1_0_0_1_n_n.lhsIdx_val_of_single rfl i c
  · exact fun i c => dot_S400x10000_S10000x128_S400x128_1_0_0_1_n_n.rhsIdx_val_of_single rfl i c
  · intro i c
    unfold DotDims.rhsIdx
    rw [dif_neg (show ¬(1 : Fin S10000x128.rank) ∈ dot_S400x10000_S10000x128_S400x128_1_0_0_1_n_n.rhsBatch by decide),
      dif_pos (show (1 : Fin S10000x128.rank) ∈ dot_S400x10000_S10000x128_S400x128_1_0_0_1_n_n.rhsNonContracting by decide)]
    rfl

/-- A stripe of hidden activations times the second weight matrix: 400 × 128 by 128 × 64. -/
theorem mm_hid_w2 (a : FVec Ideal S400x128 .f32) (b : FVec Ideal S128x64 .f32) (p : Fin 400) (q : Fin 64) :
    matmul dot_S400x128_S128x64_S400x64_1_0_0_1_n_n none a b (constant (F := Ideal) S400x64 .f32 0x00000000#32) (ix2 p q)
      = ∑ k : Fin 128, a (ix2 p k) * b (ix2 k q) := by
  refine matmul_zero_ix2 dot_S400x128_S128x64_S400x64_1_0_0_1_n_n rfl rfl ?_ ?_ ?_ ?_ a b p q
  · intro i c
    unfold DotDims.lhsIdx
    rw [dif_neg (show ¬(0 : Fin S400x128.rank) ∈ dot_S400x128_S128x64_S400x64_1_0_0_1_n_n.lhsBatch by decide),
      dif_pos (show (0 : Fin S400x128.rank) ∈ dot_S400x128_S128x64_S400x64_1_0_0_1_n_n.lhsNonContracting by decide)]
    rfl
  · exact fun i c => dot_S400x128_S128x64_S400x64_1_0_0_1_n_n.lhsIdx_val_of_single rfl i c
  · exact fun i c => dot_S400x128_S128x64_S400x64_1_0_0_1_n_n.rhsIdx_val_of_single rfl i c
  · intro i c
    unfold DotDims.rhsIdx
    rw [dif_neg (show ¬(1 : Fin S128x64.rank) ∈ dot_S400x128_S128x64_S400x64_1_0_0_1_n_n.rhsBatch by decide),
      dif_pos (show (1 : Fin S128x64.rank) ∈ dot_S400x128_S128x64_S400x64_1_0_0_1_n_n.rhsNonContracting by decide)]
    rfl

/-- A stripe of 400 rows of the adjacency times the 10000 × 64 second-layer product. -/
theorem mm_adj_hw (a : FVec Ideal S400x10000 .f32) (b : FVec Ideal S10000x64 .f32) (p : Fin 400) (q : Fin 64) :
    matmul dot_S400x10000_S10000x64_S400x64_1_0_0_1_n_n none a b (constant (F := Ideal) S400x64 .f32 0x00000000#32) (ix2 p q)
      = ∑ k : Fin 10000, a (ix2 p k) * b (ix2 k q) := by
  refine matmul_zero_ix2 dot_S400x10000_S10000x64_S400x64_1_0_0_1_n_n rfl rfl ?_ ?_ ?_ ?_ a b p q
  · intro i c
    unfold DotDims.lhsIdx
    rw [dif_neg (show ¬(0 : Fin S400x10000.rank) ∈ dot_S400x10000_S10000x64_S400x64_1_0_0_1_n_n.lhsBatch by decide),
      dif_pos (show (0 : Fin S400x10000.rank) ∈ dot_S400x10000_S10000x64_S400x64_1_0_0_1_n_n.lhsNonContracting by decide)]
    rfl
  · exact fun i c => dot_S400x10000_S10000x64_S400x64_1_0_0_1_n_n.lhsIdx_val_of_single rfl i c
  · exact fun i c => dot_S400x10000_S10000x64_S400x64_1_0_0_1_n_n.rhsIdx_val_of_single rfl i c
  · intro i c
    unfold DotDims.rhsIdx
    rw [dif_neg (show ¬(1 : Fin S10000x64.rank) ∈ dot_S400x10000_S10000x64_S400x64_1_0_0_1_n_n.rhsBatch by decide),
      dif_pos (show (1 : Fin S10000x64.rank) ∈ dot_S400x10000_S10000x64_S400x64_1_0_0_1_n_n.rhsNonContracting by decide)]
    rfl

/-! ## The product x · W1 -/

theorem pay_xw (x : Vec Ideal S10000x128 .f32) (w1 : Vec Ideal S128x128 .f32) (k : Fin 10000) (h : Fin 128) :
    k0_pay1 (F := Ideal) x w1 (ix2 k h) = ∑ f : Fin 128, x (ix2 k f) * w1 (ix2 f h) := by
  unfold k0_pay1
  rw [shapeCast_self]
  exact mm_x_w1 x w1 k h

/-! ## A column kept as a unit axis, and broadcast back over the lanes -/

section Column
variable {α : Type}

/-- A vector `[a]` cast to the column `[a, 1]` reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-- A per-row value kept as a column and broadcast back over the 64 lanes reads, in row `p`, that row's value. -/
theorem col_apply (m : FVec Ideal S400 .f32) (p : Fin 400) (q : Fin 64) :
    broadcastTo S400x64 (shapeCast S400x1 m shapeCasts_S400_S400x1) broadcasts_S400x1_S400x64 (ix2 p q) = m (ix1 p) :=
  (broadcastTo_a1_ab_apply _ broadcasts_S400x1_S400x64 p q).trans (shapeCast_a_a1_apply m shapeCasts_S400_S400x1 p 0)

/-- The same with the logarithm taken on the column. -/
theorem col_log_apply (m : FVec Ideal S400 .f32) (p : Fin 400) (q : Fin 64) :
    broadcastTo S400x64 (log (shapeCast S400x1 m shapeCasts_S400_S400x1)) broadcasts_S400x1_S400x64 (ix2 p q)
      = Ideal.log (m (ix1 p)) :=
  (broadcastTo_a1_ab_apply _ broadcasts_S400x1_S400x64 p q).trans
    (congrArg Ideal.log (shapeCast_a_a1_apply m shapeCasts_S400_S400x1 p 0))

/-! ## The lane reductions of a 400 × 64 stripe -/

/-- Row `p` of the stripe with lane `k` put back is the entry `(p, k)`. -/
theorem lift_row (p : Fin 400) (k : Fin 64) : reduces_S400x64_S400.lift (ix1 p) k = ix2 p k := by
  funext ax
  match ax with
  | ⟨0, _⟩ => rfl
  | ⟨1, _⟩ => rfl

/-- The sum over the lanes of row `p`. -/
theorem rowsum_apply (y : FVec Ideal S400x64 .f32) (hφ : FKind.Formats .f32)
    (hacc : (0x00000000#32 : BitVec 32) = FKind.add.neutral .f32 hφ) (p : Fin 400) :
    multiReduction .add [1] S400 y 0x00000000#32 reduces_S400x64_S400 hφ hacc (ix1 p) = ∑ k : Fin 64, y (ix2 p k) := by
  refine (Ideal.multiReduction_add_single y 0x00000000#32 reduces_S400x64_S400 hφ hacc (ix1 p)).trans ?_
  exact Finset.sum_congr rfl fun k _ => congrArg y (lift_row p k)

/-- The maximum over the lanes of row `p`, folded from −∞. -/
theorem rowmax_apply (y : FVec Ideal S400x64 .f32) (hφ : FKind.Formats .f32)
    (hacc : (0xFF800000#32 : BitVec 32) = FKind.maximumf.neutral .f32 hφ) (p : Fin 400) :
    multiReduction .maximumf [1] S400 y 0xFF800000#32 reduces_S400x64_S400 hφ hacc (ix1 p)
      = (Finset.univ : Finset (Fin 64)).fold max negInfW (fun k => y (ix2 p k)) := by
  refine (Ideal.multiReduction_maximumf_single y 0xFF800000#32 reduces_S400x64_S400 hφ hacc (ix1 p)).trans ?_
  exact congrArg ((Finset.univ : Finset (Fin 64)).fold max negInfW) (funext fun k => congrArg y (lift_row p k))

/-! ## The log-softmax of a stripe's rows -/

/-- With the row's shift `M` already known at every lane of row `p`: the shifted entry less the logarithm of the
    row's sum of exponentials of the shifted entries. -/
theorem tail_of_shift (y c : FVec Ideal S400x64 .f32) (M : EReal) (p : Fin 400) (hc : ∀ q', c (ix2 p q') = M) (q : Fin 64) :
    subf (subf y c)
        (broadcastTo S400x64 (log (shapeCast S400x1
          (multiReduction .add [1] S400 (exp (subf y c)) 0x00000000#32 reduces_S400x64_S400 (.inl rfl) rfl)
          shapeCasts_S400_S400x1)) broadcasts_S400x1_S400x64) (ix2 p q)
      = (y (ix2 p q) - M) - Ideal.log (∑ q' : Fin 64, Ideal.exp (y (ix2 p q') - M)) := by
  have h2 := (col_log_apply (multiReduction .add [1] S400 (exp (subf y c)) 0x00000000#32 reduces_S400x64_S400 (.inl rfl) rfl) p q).trans
    (congrArg Ideal.log ((rowsum_apply (exp (subf y c)) _ _ p).trans (Finset.sum_congr rfl fun q' _ =>
      show Ideal.exp (y (ix2 p q') - c (ix2 p q')) = Ideal.exp (y (ix2 p q') - M) by rw [hc q'])))
  rw [subf_apply, subf_apply, hc q]
  exact congrArg (fun t => y (ix2 p q) - M - t) h2

/-- A stripe shifted by its row maxima, less the logarithm of the row sums of the exponentials, is at `(p, q)` the
    log-softmax of row `p` at class `q`. -/
theorem lsm_tail (y : FVec Ideal S400x64 .f32) (p : Fin 400) (q : Fin 64) :
    subf (subf y (broadcastTo S400x64 (shapeCast S400x1
          (multiReduction .maximumf [1] S400 y 0xFF800000#32 reduces_S400x64_S400 (.inl rfl) rfl)
          shapeCasts_S400_S400x1) broadcasts_S400x1_S400x64))
        (broadcastTo S400x64 (log (shapeCast S400x1
          (multiReduction .add [1] S400 (exp (subf y (broadcastTo S400x64 (shapeCast S400x1
            (multiReduction .maximumf [1] S400 y 0xFF800000#32 reduces_S400x64_S400 (.inl rfl) rfl)
            shapeCasts_S400_S400x1) broadcasts_S400x1_S400x64))) 0x00000000#32 reduces_S400x64_S400 (.inl rfl) rfl)
          shapeCasts_S400_S400x1)) broadcasts_S400x1_S400x64) (ix2 p q)
      = lsm (fun q' => y (ix2 p q')) q :=
  tail_of_shift y _ _ p (fun q' => (col_apply _ p q').trans (rowmax_apply y _ _ p)) q

/-! ## The stripe of log-softmax rows -/

theorem pay_out (a : Vec Ideal S400x10000 .f32) (z : Vec Ideal S10000x64 .f32) (b : Vec Ideal S1x64 .f32) (p : Fin 400) (q : Fin 64) :
    k1_pay1 (F := Ideal) a z b (ix2 p q)
      = lsm (fun q' : Fin 64 => (∑ k : Fin 10000, a (ix2 p k) * z (ix2 k q')) + b (ix2 0 q')) q := by
  unfold k1_pay1
  refine (lsm_tail _ p q).trans ?_
  refine congrArg (fun L => lsm L q) (funext fun q' => ?_)
  rw [addf_apply, shapeCast_self, shapeCast_self, broadcastTo_1b_ab_apply]
  exact congrArg (· + b (ix2 0 q')) (mm_adj_hw a z p q')

/-! ## The stripe of hidden activations times W2 -/

theorem pay_hw (a : Vec Ideal S400x10000 .f32) (s : Vec Ideal S10000x128 .f32) (b : Vec Ideal S1x128 .f32) (w2 : Vec Ideal S128x64 .f32) (p : Fin 400) (q : Fin 64) :
    k0_pay2 (F := Ideal) a s b w2 (ix2 p q)
      = ∑ h : Fin 128, max ((∑ k : Fin 10000, a (ix2 p k) * s (ix2 k h)) + b (ix2 0 h)) zeroW * w2 (ix2 h q) := by
  unfold k0_pay2
  refine (mm_hid_w2 _ w2 p q).trans ?_
  refine Finset.sum_congr rfl fun h _ => ?_
  refine congrArg (· * w2 (ix2 h q)) ?_
  rw [maximumf_apply, addf_apply, broadcast_apply, shapeCast_self, broadcastTo_1b_ab_apply, mm_adj_xw a s p h]
  rfl

end Cert.KernelIdeal.Payload

end
-- ==== Proof.KIValue.lean ====
/-
  What the idealized kernel's two passes leave in their output arrays, as whole-array functions of the buffers each
  pass is entered with. Point `t` of either pass writes back rows 400·t … 400·t+399, the 25 points' blocks tile the
  array, and each written row is the body's arithmetic on that stripe of the adjacency — so the output array is one
  function of the entry contents, index by index:
    first pass   (i, q) ↦ Σ_h max (Σ_k adj(i,k) · S(k,h) + b(0,h)) 0 · W2(h,q),  S the scratch's x·W1;
    second pass  (i, q) ↦ the log-softmax entry of the row q' ↦ Σ_k adj(i,k) · Z(k,q') + b(0,q').
-/
import proofs.«147694_g50946902065446_cont_8to1_c_980_2_alg».proof.Proof.KIRun
import proofs.«147694_g50946902065446_cont_8to1_c_980_2_alg».proof.Proof.Payload
import proofs.«147694_g50946902065446_cont_8to1_c_980_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand Cert.KernelIdeal.Payload Cert.GraphConv
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- Row `p` of the stripe that point `n` sees is row 400·n + p of the array. -/
def rowOf (n : ℕ) (hn : n < 25) (p : Fin 400) : Fin 10000 := ⟨n * 400 + p.val, by have := p.isLt; omega⟩

/-! ## The second pass -/

/-- The printed index maps over the grid: the whole-array windows sit at block (0, 0), the stripe windows at (t, 0). -/
theorem idx1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem lt1 (t : Fin cfg1.N) : t.val < 25 := lt_of_lt_of_eq t.isLt (show cfg1.N = 25 from N_1)

/-- The first-layer product's window is the whole array. -/
theorem rd1_z (c : Dev nD) (t : Fin cfg1.N) (k : Fin 10000) (q : Fin 64) :
    blk1 V c 0 t (ix2 k q) = V c main_call0_v1 (ix2 k q) := by
  show V c main_call0_v1 (((cfg1.win 0).blk t).view.emb (ix2 k q)) = V c main_call0_v1 (ix2 k q)
  refine congrArg _ ?_
  obtain ⟨e0, e1, -⟩ := idx1 t
  funext a; apply Fin.ext
  match a with
  | ⟨0, _⟩ => show win1_0.index t (0 : Fin 2) * 10000 + 1 * k.val = k.val; omega
  | ⟨1, _⟩ => show win1_0.index t (1 : Fin 2) * 64 + 1 * q.val = q.val; omega

/-- The bias row's window is the whole row. -/
theorem rd1_b (c : Dev nD) (t : Fin cfg1.N) (q : Fin 64) :
    blk1 V c 1 t (ix2 0 q) = V c main_call0_v2 (ix2 0 q) := by
  show V c main_call0_v2 (((cfg1.win 1).blk t).view.emb (ix2 0 q)) = V c main_call0_v2 (ix2 0 q)
  refine congrArg _ ?_
  obtain ⟨-, -, e0, e1, -⟩ := idx1 t
  funext a; apply Fin.ext
  match a with
  | ⟨0, _⟩ => show win1_1.index t (0 : Fin 2) * 1 + 1 * 0 = 0; omega
  | ⟨1, _⟩ => show win1_1.index t (1 : Fin 2) * 64 + 1 * q.val = q.val; omega

/-- The adjacency window at point `t` is rows 400·t … of the array. -/
theorem rd1_a (c : Dev nD) (t : Fin cfg1.N) (p : Fin 400) (k : Fin 10000) :
    blk1 V c 2 t (ix2 p k) = V c main_arg1 (ix2 (rowOf t.val (lt1 t) p) k) := by
  show V c main_arg1 (((cfg1.win 2).blk t).view.emb (ix2 p k)) = V c main_arg1 (ix2 (rowOf t.val (lt1 t) p) k)
  refine congrArg _ ?_
  obtain ⟨-, -, -, -, e0, e1, -⟩ := idx1 t
  funext a; apply Fin.ext
  match a with
  | ⟨0, _⟩ => show win1_2.index t (0 : Fin 2) * 400 + 1 * p.val = t.val * 400 + p.val; omega
  | ⟨1, _⟩ => show win1_2.index t (1 : Fin 2) * 10000 + 1 * k.val = k.val; omega

/-- The second pass's output array as a function of the buffers it is entered with. -/
def stage1 (Z : Mat 10000 64) (B : Mat 1 64) (A : Mat 10000 10000) : Mat 10000 64 :=
  fun i => lsm (fun q' : Fin 64 => (∑ k : Fin 10000, A (ix2 (i 0) k) * Z (ix2 k q')) + B (ix2 0 q')) (i 1)

/-- What point `t` writes back is block `t` of `stage1`. -/
theorem flushed1_eq (c : Dev nD) (t : Fin cfg1.N) :
    (dat1 V c).flushed 3 t = ((cfg1.win 3).blk t).view.read (Elt Ideal) (stage1 (V c main_call0_v1) (V c main_call0_v2) (V c main_arg1)) := by
  show (cfg1.win 3).cut (grid1.coords t) ((dat1 V c).after 3 t) = _
  rw [after1_3]
  unfold out1
  rw [View.canon_unit_zero hz2]
  simp only [View.ld_unit_zero (S := S10000x64) hz2, View.ld_unit_zero (S := S1x64) hz2, View.ld_unit_zero (S := S400x10000) hz2]
  funext j
  obtain ⟨p, q, rfl⟩ : ∃ (p : Fin 400) (q : Fin 64), j = ix2 p q := ⟨j 0, j 1, eq_ix2 j⟩
  obtain ⟨-, -, -, -, -, -, e0, e1⟩ := idx1 t
  have he : ((cfg1.win 3).blk t).view.emb (ix2 p q) = ix2 (rowOf t.val (lt1 t) p) q := by
    funext a; apply Fin.ext
    match a with
    | ⟨0, _⟩ => show win1_3.index t (0 : Fin 2) * 400 + 1 * p.val = t.val * 400 + p.val; omega
    | ⟨1, _⟩ => show win1_3.index t (1 : Fin 2) * 64 + 1 * q.val = q.val; omega
  show k1_pay1 (F := Ideal) (blk1 V c 2 t) (blk1 V c 0 t) (blk1 V c 1 t) (ix2 p q)
    = stage1 (V c main_call0_v1) (V c main_call0_v2) (V c main_arg1) (((cfg1.win 3).blk t).view.emb (ix2 p q))
  rw [he]
  refine (pay_out _ _ _ p q).trans ?_
  unfold stage1
  refine congrArg (fun L => lsm L q) (funext fun q' => ?_)
  rw [rd1_b]
  refine congrArg (· + _) (Finset.sum_congr rfl fun k _ => ?_)
  rw [rd1_a, rd1_z]

/-- An index of the array is in point `t`'s block iff each coordinate is in the block's range on its axis. -/
theorem mem_blk1 (t : Fin cfg1.N) (i : S10000x64.Idx) :
    i ∈ ((cfg1.win 3).blk t).view.set ↔ ∀ a : Fin 2, win1_3.index t a * S400x64.size a ≤ (i a).val ∧ (i a).val < win1_3.index t a * S400x64.size a + S400x64.size a := by
  show i ∈ ((View.whole main_v0).slice (win1_3.rect t)).set ↔ _
  rw [View.set_slice_whole, Rect.mem_set_unit]
  exact Iff.rfl

/-- Every row is in some point's stripe: row `r` in point `r / 400`'s. -/
theorem cover1 (i : S10000x64.Idx) : ∃ t : Fin cfg1.N, (cfg1.win 3).flush t = true ∧ i ∈ ((cfg1.win 3).blk t).view.set := by
  have hi0 : (i 0).val < 10000 := (i 0).isLt
  have hi1 : (i 1).val < 64 := (i 1).isLt
  have hN : cfg1.N = 25 := N_1
  refine ⟨⟨(i 0).val / 400, by omega⟩, flush1_3 _, ?_⟩
  rw [mem_blk1]
  obtain ⟨-, -, -, -, -, -, e0, e1⟩ := idx1 ⟨(i 0).val / 400, by omega⟩
  intro a
  match a with
  | ⟨0, _⟩ => show win1_3.index _ (0 : Fin 2) * 400 ≤ (i 0).val ∧ (i 0).val < win1_3.index _ (0 : Fin 2) * 400 + 400; rw [e0]; show (i 0).val / 400 * 400 ≤ (i 0).val ∧ (i 0).val < (i 0).val / 400 * 400 + 400; omega
  | ⟨1, _⟩ => show win1_3.index _ (1 : Fin 2) * 64 ≤ (i 1).val ∧ (i 1).val < win1_3.index _ (1 : Fin 2) * 64 + 64; rw [e1]; omega

/-- The second pass's output array after its write-backs. -/
theorem final1 (c : Dev nD) :
    (dat1 V c).arrAt 3 cfg1.N = stage1 (V c main_call0_v1) (V c main_call0_v2) (V c main_arg1) :=
  (dat1 V c).arrAt_eq_of_cover 3 _ (fun t _ => flushed1_eq V c t) cover1

/-! ## The first pass -/

theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem lt0 (t : Fin cfg0.N) : t.val < 25 := lt_of_lt_of_eq t.isLt (show cfg0.N = 25 from N_0)

theorem rd0_x (c : Dev nD) (t : Fin cfg0.N) (k : Fin 10000) (f : Fin 128) :
    blk0 V c 0 t (ix2 k f) = V c main_arg0 (ix2 k f) := by
  show V c main_arg0 (((cfg0.win 0).blk t).view.emb (ix2 k f)) = V c main_arg0 (ix2 k f)
  refine congrArg _ ?_
  obtain ⟨e0, e1, -⟩ := idx0 t
  funext a; apply Fin.ext
  match a with
  | ⟨0, _⟩ => show win0_0.index t (0 : Fin 2) * 10000 + 1 * k.val = k.val; omega
  | ⟨1, _⟩ => show win0_0.index t (1 : Fin 2) * 128 + 1 * f.val = f.val; omega

theorem rd0_w1 (c : Dev nD) (t : Fin cfg0.N) (f h : Fin 128) :
    blk0 V c 1 t (ix2 f h) = V c main_arg2 (ix2 f h) := by
  show V c main_arg2 (((cfg0.win 1).blk t).view.emb (ix2 f h)) = V c main_arg2 (ix2 f h)
  refine congrArg _ ?_
  obtain ⟨-, -, e0, e1, -⟩ := idx0 t
  funext a; apply Fin.ext
  match a with
  | ⟨0, _⟩ => show win0_1.index t (0 : Fin 2) * 128 + 1 * f.val = f.val; omega
  | ⟨1, _⟩ => show win0_1.index t (1 : Fin 2) * 128 + 1 * h.val = h.val; omega

theorem rd0_b (c : Dev nD) (t : Fin cfg0.N) (h : Fin 128) :
    blk0 V c 2 t (ix2 0 h) = V c main_call0_v0 (ix2 0 h) := by
  show V c main_call0_v0 (((cfg0.win 2).blk t).view.emb (ix2 0 h)) = V c main_call0_v0 (ix2 0 h)
  refine congrArg _ ?_
  obtain ⟨-, -, -, -, e0, e1, -⟩ := idx0 t
  funext a; apply Fin.ext
  match a with
  | ⟨0, _⟩ => show win0_2.index t (0 : Fin 2) * 1 + 1 * 0 = 0; omega
  | ⟨1, _⟩ => show win0_2.index t (1 : Fin 2) * 128 + 1 * h.val = h.val; omega

theorem rd0_w2 (c : Dev nD) (t : Fin cfg0.N) (h : Fin 128) (q : Fin 64) :
    blk0 V c 3 t (ix2 h q) = V c main_arg4 (ix2 h q) := by
  show V c main_arg4 (((cfg0.win 3).blk t).view.emb (ix2 h q)) = V c main_arg4 (ix2 h q)
  refine congrArg _ ?_
  obtain ⟨-, -, -, -, -, -, e0, e1, -⟩ := idx0 t
  funext a; apply Fin.ext
  match a with
  | ⟨0, _⟩ => show win0_3.index t (0 : Fin 2) * 128 + 1 * h.val = h.val; omega
  | ⟨1, _⟩ => show win0_3.index t (1 : Fin 2) * 64 + 1 * q.val = q.val; omega

theorem rd0_a (c : Dev nD) (t : Fin cfg0.N) (p : Fin 400) (k : Fin 10000) :
    blk0 V c 4 t (ix2 p k) = V c main_arg1 (ix2 (rowOf t.val (lt0 t) p) k) := by
  show V c main_arg1 (((cfg0.win 4).blk t).view.emb (ix2 p k)) = V c main_arg1 (ix2 (rowOf t.val (lt0 t) p) k)
  refine congrArg _ ?_
  obtain ⟨-, -, -, -, -, -, -, -, e0, e1, -⟩ := idx0 t
  funext a; apply Fin.ext
  match a with
  | ⟨0, _⟩ => show win0_4.index t (0 : Fin 2) * 400 + 1 * p.val = t.val * 400 + p.val; omega
  | ⟨1, _⟩ => show win0_4.index t (1 : Fin 2) * 10000 + 1 * k.val = k.val; omega

/-- What the scratch holds after the first point: x·W1 of the feature and weight arrays. -/
theorem scr_at (c : Dev nD) (X : Mat 10000 128) (W : Mat 128 128) (hX : V c main_arg0 = X) (hW : V c main_arg2 = W)
    (k : Fin 10000) (h : Fin 128) :
    scrAt V c (ix2 k h) = ∑ f : Fin 128, X (ix2 k f) * W (ix2 f h) := by
  subst hX; subst hW
  unfold scrAt scr0
  rw [View.canon_unit_zero hz2]
  simp only [View.ld_unit_zero (S := S10000x128) hz2, View.ld_unit_zero (S := S128x128) hz2]
  refine (pay_xw _ _ k h).trans (Finset.sum_congr rfl fun f _ => ?_)
  rw [rd0_x, rd0_w1]

/-- The first pass's output array as a function of the buffers it is entered with. -/
def stage0 (X : Mat 10000 128) (W1 : Mat 128 128) (B : Mat 1 128) (W2 : Mat 128 64) (A : Mat 10000 10000) : Mat 10000 64 :=
  fun i => ∑ h : Fin 128, max ((∑ k : Fin 10000, A (ix2 (i 0) k) * (∑ f : Fin 128, X (ix2 k f) * W1 (ix2 f h))) + B (ix2 0 h)) zeroW
    * W2 (ix2 h (i 1))

theorem flushed0_eq (c : Dev nD) (t : Fin cfg0.N) :
    (dat0 V c).flushed 5 t = ((cfg0.win 5).blk t).view.read (Elt Ideal)
      (stage0 (V c main_arg0) (V c main_arg2) (V c main_call0_v0) (V c main_arg4) (V c main_arg1)) := by
  show (cfg0.win 5).cut (grid0.coords t) ((dat0 V c).after 5 t) = _
  rw [after0_5]
  unfold out0
  rw [View.canon_unit_zero hz2]
  simp only [View.ld_unit_zero (S := S400x10000) hz2, View.ld_unit_zero (S := S10000x128) hz2, View.ld_unit_zero (S := S1x128) hz2,
    View.ld_unit_zero (S := S128x64) hz2]
  funext j
  obtain ⟨p, q, rfl⟩ : ∃ (p : Fin 400) (q : Fin 64), j = ix2 p q := ⟨j 0, j 1, eq_ix2 j⟩
  obtain ⟨-, -, -, -, -, -, -, -, -, -, e0, e1⟩ := idx0 t
  have he : ((cfg0.win 5).blk t).view.emb (ix2 p q) = ix2 (rowOf t.val (lt0 t) p) q := by
    funext a; apply Fin.ext
    match a with
    | ⟨0, _⟩ => show win0_5.index t (0 : Fin 2) * 400 + 1 * p.val = t.val * 400 + p.val; omega
    | ⟨1, _⟩ => show win0_5.index t (1 : Fin 2) * 64 + 1 * q.val = q.val; omega
  show k0_pay2 (F := Ideal) (blk0 V c 4 t) (scrAt V c) (blk0 V c 2 t) (blk0 V c 3 t) (ix2 p q)
    = stage0 (V c main_arg0) (V c main_arg2) (V c main_call0_v0) (V c main_arg4) (V c main_arg1) (((cfg0.win 5).blk t).view.emb (ix2 p q))
  rw [he]
  refine (pay_hw _ _ _ _ p q).trans ?_
  unfold stage0
  refine Finset.sum_congr rfl fun h _ => ?_
  rw [rd0_b, rd0_w2]
  refine congrArg (fun s => max (s + _) zeroW * _) (Finset.sum_congr rfl fun k _ => ?_)
  rw [rd0_a, scr_at V c _ _ rfl rfl]

theorem mem_blk0 (t : Fin cfg0.N) (i : S10000x64.Idx) :
    i ∈ ((cfg0.win 5).blk t).view.set ↔ ∀ a : Fin 2, win0_5.index t a * S400x64.size a ≤ (i a).val ∧ (i a).val < win0_5.index t a * S400x64.size a + S400x64.size a := by
  show i ∈ ((View.whole main_call0_v1).slice (win0_5.rect t)).set ↔ _
  rw [View.set_slice_whole, Rect.mem_set_unit]
  exact Iff.rfl

theorem cover0 (i : S10000x64.Idx) : ∃ t : Fin cfg0.N, (cfg0.win 5).flush t = true ∧ i ∈ ((cfg0.win 5).blk t).view.set := by
  have hi0 : (i 0).val < 10000 := (i 0).isLt
  have hi1 : (i 1).val < 64 := (i 1).isLt
  have hN : cfg0.N = 25 := N_0
  refine ⟨⟨(i 0).val / 400, by omega⟩, flush0_5 _, ?_⟩
  rw [mem_blk0]
  obtain ⟨-, -, -, -, -, -, -, -, -, -, e0, e1⟩ := idx0 ⟨(i 0).val / 400, by omega⟩
  intro a
  match a with
  | ⟨0, _⟩ => show win0_5.index _ (0 : Fin 2) * 400 ≤ (i 0).val ∧ (i 0).val < win0_5.index _ (0 : Fin 2) * 400 + 400; rw [e0]; show (i 0).val / 400 * 400 ≤ (i 0).val ∧ (i 0).val < (i 0).val / 400 * 400 + 400; omega
  | ⟨1, _⟩ => show win0_5.index _ (1 : Fin 2) * 64 ≤ (i 1).val ∧ (i 1).val < win0_5.index _ (1 : Fin 2) * 64 + 64; rw [e1]; omega

/-- The first pass's output array after its write-backs. -/
theorem final0 (c : Dev nD) :
    (dat0 V c).arrAt 5 cfg0.N = stage0 (V c main_arg0) (V c main_arg2) (V c main_call0_v0) (V c main_arg4) (V c main_arg1) :=
  (dat0 V c).arrAt_eq_of_cover 5 _ (fun t _ => flushed0_eq V c t) cover0

end Cert.KernelIdeal.HandValue

end
-- ==== Proof.KIFinal.lean ====
/-
  The idealized kernel's result as a function of the argument arrays. The first pass is entered with the arguments
  and the first bias reshaped to a row; it leaves its output array at `stage0` of them. The second pass is entered with
  that array, the second bias reshaped to a row and the adjacency; it leaves the result at `stage1` of them. Reading
  a reshaped bias at (0, h) as the bias at h, the composition is the network's output `Cert.GraphConv.outArr`, entry
  by entry: the same finite sums, the same clamp, the same row maximum and log-sum.
-/
import proofs.«147694_g50946902065446_cont_8to1_c_980_2_alg».proof.Proof.KIValue

set_option maxRecDepth 16384

noncomputable section

namespace Cert.KernelIdeal.HandValue

open Cert.KernelIdeal Cert.KernelIdeal.Gen Cert.KernelIdeal.Hand Cert.GraphConv
open Idealize.ShloMosaic Idealize.ShloMosaic.TcCoe Idealize.ShloMosaic.ValueIdx Idealize.ShloMosaic.StableHlo
open Idealize.SL Idealize.SL.Sem

/-- The two passes composed, over any arrays: the network's output. -/
theorem stages_eq (X : Mat 10000 128) (A : Mat 10000 10000) (W1 : Mat 128 128) (B1 : Vc 128) (W2 : Mat 128 64) (B2 : Vc 64)
    (h1 : (⟨1, ![128]⟩ : Shape).ShapeCasts ⟨2, ![1, 128]⟩) (h2 : (⟨1, ![64]⟩ : Shape).ShapeCasts ⟨2, ![1, 64]⟩) :
    stage1 (stage0 X W1 (shapeCast ⟨2, ![1, 128]⟩ B1 h1) W2 A) (shapeCast ⟨2, ![1, 64]⟩ B2 h2) A = outArr X A W1 B1 W2 B2 := by
  funext i
  obtain ⟨r, q, rfl⟩ : ∃ (r : Fin 10000) (q : Fin 64), i = ix2 r q := ⟨i 0, i 1, eq_ix2 i⟩
  show lsm (fun q' : Fin 64 => (∑ k : Fin 10000, A (ix2 r k) * stage0 X W1 (shapeCast ⟨2, ![1, 128]⟩ B1 h1) W2 A (ix2 k q'))
      + shapeCast ⟨2, ![1, 64]⟩ B2 h2 (ix2 0 q')) q = lsm (logitOf A B2 (hw X A W1 B1 W2) r) q
  refine congrArg (fun L => lsm L q) (funext fun q' => ?_)
  unfold logitOf
  rw [shapeCast_a_1a_apply]
  refine congrArg (· + _) (Finset.sum_congr rfl fun k _ => congrArg (_ * ·) ?_)
  show (∑ h : Fin 128, max ((∑ k' : Fin 10000, A (ix2 k k') * (∑ f : Fin 128, X (ix2 k' f) * W1 (ix2 f h)))
      + shapeCast ⟨2, ![1, 128]⟩ B1 h1 (ix2 0 h)) zeroW * W2 (ix2 h q')) = hw X A W1 B1 W2 k q'
  unfold hw hid xw
  refine Finset.sum_congr rfl fun h _ => ?_
  rw [shapeCast_a_1a_apply]

variable (m : (ℓ : Loc nD τ sig) → Buf (Elt Ideal) ℓ)

/-! ## What each pass is entered with -/

/-- The first reshape writes the first bias as a row. -/
theorem enter0_b (c : Dev nD) :
    (U1 m c main_call0_v0 : S1x128.Idx → EReal) = shapeCast S1x128 (m ((c : Thread nD τ).loc main_arg3)) shapeCasts_S128_S1x128 := by
  show StableHlo.after hostOps0 (W0 m c) (Proc.devRef .tc main_call0_v0) = _
  after_results
  rfl

/-- The second reshape writes the second bias as a row. -/
theorem enter1_b (c : Dev nD) :
    (U3 m c main_call0_v2 : S1x64.Idx → EReal) = shapeCast S1x64 (m ((c : Thread nD τ).loc main_arg5)) shapeCasts_S64_S1x64 := by
  have e : (U3 m c main_call0_v2 : S1x64.Idx → EReal) = shapeCast S1x64 (W2 m c (Proc.devRef .tc main_arg5)) shapeCasts_S64_S1x64 := by
    show StableHlo.after hostOps1 (W2 m c) (Proc.devRef .tc main_call0_v2) = _
    after_results
    rfl
  rw [e, (W2_of_ne m c main_arg5 (by decide)).trans ((W1_of m c main_arg5 (by decide)).trans rfl)]

/-- The second pass finds the first pass's output array in its first window's array. -/
theorem enter1_z (c : Dev nD) : U3 m c main_call0_v1 = (dat0 (U1 m) c).arrAt 5 cfg0.N :=
  (W3_of m c main_call0_v1 (by decide)).trans (W2_arr m c 5)

/-- Both passes find the adjacency as launched. -/
theorem enter1_a (c : Dev nD) : U3 m c main_arg1 = m ((c : Thread nD τ).loc main_arg1) :=
  (W3_of m c main_arg1 (by decide)).trans <| (W2_in m c 4 rfl).trans <| (W1_of m c main_arg1 (by decide)).trans rfl

/-- The idealized kernel's result array: the network's output of the argument arrays. -/
theorem kernel_out (c : Dev nD) :
    (dat1 (U3 m) c).arrAt 3 cfg1.N
      = outArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [final1 (U3 m) c, enter1_z, enter1_a, final0 (U1 m) c]
  rw [show U1 m c main_arg0 = m ((c : Thread nD τ).loc main_arg0) from (W1_of m c main_arg0 (by decide)).trans rfl,
    show U1 m c main_arg2 = m ((c : Thread nD τ).loc main_arg2) from (W1_of m c main_arg2 (by decide)).trans rfl,
    show U1 m c main_arg4 = m ((c : Thread nD τ).loc main_arg4) from (W1_of m c main_arg4 (by decide)).trans rfl,
    show U1 m c main_arg1 = m ((c : Thread nD τ).loc main_arg1) from (W1_of m c main_arg1 (by decide)).trans rfl]
  exact (congrArg₂ (fun b1 b2 => stage1 (stage0 _ _ b1 _ _) b2 _) (enter0_b m c) (enter1_b m c)).trans
    (stages_eq _ _ _ _ _ _ _ _)

end Cert.KernelIdeal.HandValue

end
-- ==== Proof.LibHostFold.lean ====
/-
  Folding a straight line of host operations in two parts, and the transports its inlined calls carry.

  The buffers' contents after a list of host operations is a left fold of the operations' results over the contents at
  the start; so the fold of a concatenation is the fold of its second part over the fold of its first (after_append), and
  a long program can be read in stretches with the contents in between kept as one term.

  The operations of a function inlined at its call site carry each operand through a transport along the equation
  between its buffer's declared type and the value's type: to the buffer's type when written, back when read. A value
  carried there and back is the value (ofBuf_toBuf); and, the two types being one, a single transport of a value is that
  value, stated through heterogeneous equality so that the equation is found by the types' computation at the use site
  (ofBuf_eq, toBuf_eq: give `HEq.rfl`, or `heq_of_eq` of an equation between the two sides read at one type). Removing
  the transports by these lemmas, syntactically, before two composed terms are compared keeps the comparison from
  computing through the transports.
-/
import Idealize.ShloMosaic.Lib.StableHlo.Run

namespace Cert.HostFold

open Idealize.ShloMosaic Idealize.ShloMosaic.StableHlo

variable {τ : Topo} {sig : RefSig} {Val : EltTy → Type}

/-- Folding a concatenation is folding its second part over the fold of its first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A value carried to its buffer's type and back is the value. -/
theorem ofBuf_toBuf {T : BufTy} (x : TRef sig T) (v : T.Contents Val) : x.ofBuf (x.toBuf v) = v := by
  obtain ⟨r, hty, h2, h3⟩ := x
  subst hty
  rfl

/-- Contents read at the value's type are the contents, when the two are one term up to the types' equation. -/
theorem ofBuf_eq {T : BufTy} (x : TRef sig T) (v : x.ref.ty.Contents Val) (w : T.Contents Val) (h : HEq v w) :
    x.ofBuf v = w := by
  obtain ⟨r, hty, h2, h3⟩ := x
  subst hty
  exact eq_of_heq h

/-- A value carried to its buffer's type is the value, likewise. -/
theorem toBuf_eq {T : BufTy} (x : TRef sig T) (v : T.Contents Val) (w : x.ref.ty.Contents Val) (h : HEq v w) :
    x.toBuf v = w := by
  obtain ⟨r, hty, h2, h3⟩ := x
  subst hty
  exact eq_of_heq h

end Cert.HostFold
-- ==== Proof.RefValue.lean ====
/-
  The reference program read at an index: its result array is the network's output `Cert.GraphConv.outArr` of the
  argument arrays.

  Each layer is read at one element: a contraction as the finite sum over its axis of the products of the operands'
  entries, a bias as the vector's entry at the column, the clamp as `max` with the float zero, the row maximum as the
  fold of `max` over the 64 classes from −∞ (a further `max` with −∞ changes nothing), the sum of exponentials as a
  finite sum from the float zero. The index functions the stages compose are identified with indices built from
  coordinates, coordinate by coordinate.
-/
import proofs.«147694_g50946902065446_cont_8to1_c_980_2_alg».proof.Proof.Spec
import proofs.«147694_g50946902065446_cont_8to1_c_980_2_alg».proof.Proof.RefRead
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen
open Idealize.ShloMosaic.TcCoe Idealize.SL.Sem Cert.ReferenceIdeal.ReadP Cert.GraphConv

/-! ## The first layer -/

/-- The first product: `x · W1` at row `k`, hidden unit `h`. -/
theorem xw_at (x : FVec Ideal S10000x128 .f32) (w1 : FVec Ideal S128x128 .f32) (k : Fin 10000) (h : Fin 128) :
    val_main_v0 (F := Ideal) x w1 (ix2 k h) = xw x w1 k h := by
  rw [val_main_v0_apply]
  unfold xw
  refine Finset.sum_congr rfl fun f _ => ?_
  have e1 : lidx_main_v0 (ix2 k h) f = ix2 k f :=
    funext fun a => Fin.ext (by match a with | ⟨0, _⟩ => rfl | ⟨1, _⟩ => rfl)
  have e2 : ridx_main_v0 (ix2 k h) f = ix2 f h :=
    funext fun a => Fin.ext (by match a with | ⟨0, _⟩ => rfl | ⟨1, _⟩ => rfl)
  rw [e1, e2]

/-- The hidden activation: the adjacency's row against `x · W1`, plus the bias, clamped below at the float zero. -/
theorem hid_at (x : FVec Ideal S10000x128 .f32) (adj : FVec Ideal S10000x10000 .f32) (w1 : FVec Ideal S128x128 .f32)
    (b1 : FVec Ideal S128 .f32) (i : Fin 10000) (h : Fin 128) :
    val_main_v5 (F := Ideal) x adj w1 b1 (ix2 i h) = hid x adj w1 b1 i h := by
  rw [val_main_v5_apply, val_main_v4_apply, val_main_v1_apply, val_main_v3_apply, val_main_v2_apply,
    val_main_call0_v0_apply, val_main_call0_cst_apply]
  unfold hid
  have e1 : ∀ k : Fin 10000, lidx_main_v1 (ix2 i h) k = ix2 i k := fun k =>
    funext fun a => Fin.ext (by match a with | ⟨0, _⟩ => rfl | ⟨1, _⟩ => rfl)
  have e2 : ∀ k : Fin 10000, ridx_main_v1 (ix2 i h) k = ix2 k h := fun k =>
    funext fun a => Fin.ext (by match a with | ⟨0, _⟩ => rfl | ⟨1, _⟩ => rfl)
  have e3 : idx_main_v2 (idx_main_v3 (ix2 i h)) = ix1 h :=
    funext fun a => Fin.ext (by match a with | ⟨0, _⟩ => rfl)
  rw [e3]
  simp only [e1, e2, xw_at, Ideal.maximumf_def, Ideal.addf_def, Ideal.ofBits_def]

/-! ## The second layer -/

/-- The second product: `hid · W2` at node `k`, class `q`. -/
theorem hw_at (x : FVec Ideal S10000x128 .f32) (adj : FVec Ideal S10000x10000 .f32) (w1 : FVec Ideal S128x128 .f32)
    (b1 : FVec Ideal S128 .f32) (w2 : FVec Ideal S128x64 .f32) (k : Fin 10000) (q : Fin 64) :
    val_main_v6 (F := Ideal) x adj w1 b1 w2 (ix2 k q) = hw x adj w1 b1 w2 k q := by
  rw [val_main_v6_apply]
  unfold hw
  refine Finset.sum_congr rfl fun h _ => ?_
  have e1 : lidx_main_v6 (ix2 k q) h = ix2 k h :=
    funext fun a => Fin.ext (by match a with | ⟨0, _⟩ => rfl | ⟨1, _⟩ => rfl)
  have e2 : ridx_main_v6 (ix2 k q) h = ix2 h q :=
    funext fun a => Fin.ext (by match a with | ⟨0, _⟩ => rfl | ⟨1, _⟩ => rfl)
  rw [e1, e2, hid_at]

/-- The logits: the adjacency's row against `hid · W2`, plus the bias. -/
theorem logit_at (x : FVec Ideal S10000x128 .f32) (adj : FVec Ideal S10000x10000 .f32) (w1 : FVec Ideal S128x128 .f32)
    (b1 : FVec Ideal S128 .f32) (w2 : FVec Ideal S128x64 .f32) (b2 : FVec Ideal S64 .f32) (i : Fin 10000) (q : Fin 64) :
    val_main_v10 (F := Ideal) x adj w1 b1 w2 b2 (ix2 i q) = logitOf adj b2 (hw x adj w1 b1 w2) i q := by
  rw [val_main_v10_apply, val_main_v7_apply, val_main_v9_apply, val_main_v8_apply]
  unfold logitOf
  have e1 : ∀ k : Fin 10000, lidx_main_v7 (ix2 i q) k = ix2 i k := fun k =>
    funext fun a => Fin.ext (by match a with | ⟨0, _⟩ => rfl | ⟨1, _⟩ => rfl)
  have e2 : ∀ k : Fin 10000, ridx_main_v7 (ix2 i q) k = ix2 k q := fun k =>
    funext fun a => Fin.ext (by match a with | ⟨0, _⟩ => rfl | ⟨1, _⟩ => rfl)
  have e3 : idx_main_v8 (idx_main_v9 (ix2 i q)) = ix1 q :=
    funext fun a => Fin.ext (by match a with | ⟨0, _⟩ => rfl)
  rw [e3]
  simp only [e1, e2, hw_at, Ideal.addf_def]

/-! ## The row-wise log-softmax -/

/-- From any initial value, the fold of `max` absorbs a further `max` with that initial value. -/
theorem max_fold_max_self {ι : Type*} (s : Finset ι) (a : EReal) (f : ι → EReal) :
    max a (s.fold max a f) = s.fold max a f :=
  max_eq_right ((Finset.le_fold_max a).mpr (Or.inl le_rfl))

/-- The reduced index `i` with class `k` put back on the dropped axis is (i, k). -/
theorem lift_row (h : S10000x64.Reduces [1] S10000) (i : Fin 10000) (k : Fin (S10000x64.size 1)) :
    h.lift (ix1 i) k = ix2 i (⟨k.val, k.isLt⟩ : Fin 64) := by
  funext c; apply Fin.ext
  match c with
  | ⟨0, _⟩ => rfl
  | ⟨1, _⟩ => rfl

/-- The host's reduce with a maximum body over the 64 classes, at node `i`: the fold of `max` from the initial value over the row. -/
theorem rowReduce_at (y : FVec Ideal S10000x64 .f32) (i : Fin 10000) :
    Host.reduce FloatOps.maximumf y (val_main_call1_cst (F := Ideal)) reducesTo_S10000x64_S10000_d1 h_S_ (ix1 i)
      = (Finset.univ : Finset (Fin 64)).fold max negInfW (fun q => y (ix2 i q)) := by
  have h : S10000x64.Reduces [1] S10000 := by decide
  rw [Host.reduce_eq_fold_single FloatOps.maximumf y _ reducesTo_S10000x64_S10000_d1 h h_S_]
  have hf : (y ∘ h.lift (ix1 i)) = fun q : Fin 64 => y (ix2 i q) := funext fun k => congrArg y (lift_row h i k)
  exact congrArg (fun f => Finset.fold max negInfW f (Finset.univ : Finset (Fin 64))) hf

/-- The row maximum the reference subtracts: the maximum of −∞ with the reduce's result is the fold itself. -/
theorem rowMax_at (x : FVec Ideal S10000x128 .f32) (adj : FVec Ideal S10000x10000 .f32) (w1 : FVec Ideal S128x128 .f32)
    (b1 : FVec Ideal S128 .f32) (w2 : FVec Ideal S128x64 .f32) (b2 : FVec Ideal S64 .f32) (i : Fin 10000) :
    val_main_call1_v2 (F := Ideal) x adj w1 b1 w2 b2 (ix1 i)
      = (Finset.univ : Finset (Fin 64)).fold max negInfW (logitOf adj b2 (hw x adj w1 b1 w2) i) := by
  rw [val_main_call1_v2_apply, val_main_call1_v1_apply, val_main_call1_cst_0_apply]
  unfold val_main_call1_v0
  rw [rowReduce_at]
  have hL : (fun q : Fin 64 => val_main_v10 (F := Ideal) x adj w1 b1 w2 b2 (ix2 i q))
      = logitOf adj b2 (hw x adj w1 b1 w2) i := funext fun q => logit_at x adj w1 b1 w2 b2 i q
  rw [hL]
  exact max_fold_max_self _ _ _

/-- The shifted logits: each logit minus its row's maximum. -/
theorem shifted_at (x : FVec Ideal S10000x128 .f32) (adj : FVec Ideal S10000x10000 .f32) (w1 : FVec Ideal S128x128 .f32)
    (b1 : FVec Ideal S128 .f32) (w2 : FVec Ideal S128x64 .f32) (b2 : FVec Ideal S64 .f32) (i : Fin 10000) (q : Fin 64) :
    val_main_call1_v5 (F := Ideal) x adj w1 b1 w2 b2 (ix2 i q)
      = logitOf adj b2 (hw x adj w1 b1 w2) i q
        - (Finset.univ : Finset (Fin 64)).fold max negInfW (logitOf adj b2 (hw x adj w1 b1 w2) i) := by
  rw [val_main_call1_v5_apply, val_main_call1_v4_apply, val_main_call1_v3_apply]
  have e : idx_main_call1_v3 (idx_main_call1_v4 (ix2 i q)) = ix1 i :=
    funext fun a => Fin.ext (by match a with | ⟨0, _⟩ => rfl)
  rw [e, rowMax_at, logit_at]
  rfl

/-- The reference's result at node `i`, class `q` is the network's output there. -/
theorem out_at (x : FVec Ideal S10000x128 .f32) (adj : FVec Ideal S10000x10000 .f32) (w1 : FVec Ideal S128x128 .f32)
    (b1 : FVec Ideal S128 .f32) (w2 : FVec Ideal S128x64 .f32) (b2 : FVec Ideal S64 .f32) (i : Fin 10000) (q : Fin 64) :
    val_main_v11 (F := Ideal) x adj w1 b1 w2 b2 (ix2 i q) = out x adj w1 b1 w2 b2 i q := by
  rw [val_main_v11_apply, val_main_call1_v10_apply, val_main_call1_v9_apply, val_main_call1_v8_apply,
    val_main_call1_v7_apply, val_main_call1_cst_1_apply, shifted_at]
  have e : ∀ k : Fin 64, idx_main_call1_v7 (idx_main_call1_v8 (idx_main_call1_v10 (ix2 i q))) k = ix2 i k := fun k =>
    funext fun a => Fin.ext (by match a with | ⟨0, _⟩ => rfl | ⟨1, _⟩ => rfl)
  simp only [e, val_main_call1_v6_apply, shifted_at, Ideal.subf_def, Ideal.hostUnary_exp_def, Ideal.hostUnary_log_def,
    Ideal.ofBits_def, Ideal.ofBits_zero_f32, zero_add]
  rfl

/-- The reference's result array is the network's output as a function of the array's index. -/
theorem val_eq (x : FVec Ideal S10000x128 .f32) (adj : FVec Ideal S10000x10000 .f32) (w1 : FVec Ideal S128x128 .f32)
    (b1 : FVec Ideal S128 .f32) (w2 : FVec Ideal S128x64 .f32) (b2 : FVec Ideal S64 .f32) :
    val_main_v11 (F := Ideal) x adj w1 b1 w2 b2 = outArr x adj w1 b1 w2 b2 := by
  funext j
  obtain ⟨i, q, rfl⟩ : ∃ (i : Fin 10000) (q : Fin 64), j = ix2 i q := ⟨j 0, j 1, eq_ix2 j⟩
  exact out_at x adj w1 b1 w2 b2 i q

/-- The reference's returned array, as the run states it, is the network's output of the argument arrays. -/
theorem res_eq (m : (ℓ : Loc nD τ sig) → Buf (Elt Ideal) ℓ) (c : Dev nD) :
    Cert.ReferenceIdeal.ValueP.res_out0 (F := Ideal) m c
      = outArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (val_main_v11_eq (F := Ideal) m c).trans (val_eq _ _ _ _ _ _)

end Cert.ReferenceIdeal.RefValue

end
-- ==== Proof.lean ====
/-
  The certificate of a two-layer graph convolution with a row-wise log-softmax: a kernel of two pipelined passes
  over 400-row stripes of a dense 10000 × 10000 adjacency against the same network written on whole arrays.

  Both programs compute, entry by entry on the extended reals,
      out(i, q) = (L(i,q) − M_i) − log Σ_q' exp (L(i,q') − M_i),   L = adj · (max (adj · (x · W1) + b1) 0 · W2) + b2,
  with M_i the maximum of row i of L. The kernel's first pass keeps x · W1 in a scratch buffer across its 25 grid
  points and writes max (adj_i · xw + b1) 0 · W2 stripe by stripe; its second pass writes the log-softmax of
  adj_i · hw + b2 stripe by stripe. Nothing is regrouped: each contraction is one whole finite sum on both sides, so
  the two results are the same term at every index and no finiteness of the inputs is used.

  The three frames are the programs' runs with the result dropped; the idealization rewrote nothing; the algebraic
  claim puts the two runs side by side at the one function `Cert.GraphConv.outArr` of the argument arrays.
-/
import proofs.«147694_g50946902065446_cont_8to1_c_980_2_alg».proof.Defs
import proofs.«147694_g50946902065446_cont_8to1_c_980_2_alg».proof.Proof.Gen.Kernel
import proofs.«147694_g50946902065446_cont_8to1_c_980_2_alg».proof.Proof.Gen.KernelIdeal
import proofs.«147694_g50946902065446_cont_8to1_c_980_2_alg».proof.Proof.Gen.ReferenceIdeal
import proofs.«147694_g50946902065446_cont_8to1_c_980_2_alg».proof.Proof.Gen.Pre_finite_inputs
import proofs.«147694_g50946902065446_cont_8to1_c_980_2_alg».proof.Proof.KRun
import proofs.«147694_g50946902065446_cont_8to1_c_980_2_alg».proof.Proof.KIRun
import proofs.«147694_g50946902065446_cont_8to1_c_980_2_alg».proof.Proof.KIFinal
import proofs.«147694_g50946902065446_cont_8to1_c_980_2_alg».proof.Proof.RefValue

noncomputable section

namespace Cert.Proof

open Idealize.ShloMosaic Idealize.ShloMosaic.TcCoe Idealize.SL.Sem

/-- The word-level kernel runs to the end, faults nowhere and leaves its arguments as launched. -/
theorem frame_k : Cert.frame_Kernel := fun m ρ _ =>
  (θ_run Cert.Kernel.defs _ _).mono (fun _ h c => (h c).2) (Cert.Kernel.Hand.run_all (F := Bits) m ρ)

/-- So does the idealized kernel. -/
theorem frame_ki : Cert.frame_KernelIdeal := fun m ρ _ =>
  (θ_run Cert.KernelIdeal.defs _ _).mono (fun _ h c => (h c).2) (Cert.KernelIdeal.Hand.run_all (F := Ideal) m ρ)

/-- And the reference, a straight line of host operations. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the result array at the network's
    output of those arguments. -/
theorem algebraic : Cert.algebraic_KernelIdeal_ReferenceIdeal := by
  intro m ρ m' ρ' _ hagree
  refine ⟨fun c => Cert.GraphConv.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.HandValue.kernel_out m c), (h c).2⟩)
      (Cert.KernelIdeal.Hand.run_all (F := Ideal) m ρ)
  · refine (θ_run Cert.ReferenceIdeal.defs _ _).mono (fun _ h c => ⟨(h c).1.trans ?_, (h c).2⟩)
      (Cert.ReferenceIdeal.ValueP.run (F := Ideal) m' ρ')
    refine (Cert.ReferenceIdeal.RefValue.res_eq m' c).trans ?_
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
